-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3200x2048 : Shape := ⟨2, ![3200, 2048]⟩
abbrev S160x120 : Shape := ⟨2, ![160, 120]⟩
abbrev S19200 : Shape := ⟨1, ![19200]⟩
abbrev S6x3200x1 : Shape := ⟨3, ![6, 3200, 1]⟩
abbrev S1x3200x2048 : Shape := ⟨3, ![1, 3200, 2048]⟩
abbrev S160x192x2048 : Shape := ⟨3, ![160, 192, 2048]⟩
abbrev S160x2048x192 : Shape := ⟨3, ![160, 2048, 192]⟩
abbrev S_ : Shape := ⟨0, ![]⟩

class Facts : Prop where
  bcast_S_S3200x2048 : S_.BroadcastsInDim S3200x2048 (![] : Fin 0 → Fin S3200x2048.rank)
  reducesTo_S3200x2048_S_d0_1 : S3200x2048.ReducesTo [0, 1] S_
  h_S_ : 0 < S_.numel
  bcast_S_S6x3200x1 : S_.BroadcastsInDim S6x3200x1 (![] : Fin 0 → Fin S6x3200x1.rank)
  reducesTo_S6x3200x1_S_d0_1_2 : S6x3200x1.ReducesTo [0, 1, 2] S_
  bcast_S_S1x3200x2048 : S_.BroadcastsInDim S1x3200x2048 (![] : Fin 0 → Fin S1x3200x2048.rank)
  reducesTo_S1x3200x2048_S_d0_1_2 : S1x3200x2048.ReducesTo [0, 1, 2] S_
  bcast_S_S160x192x2048 : S_.BroadcastsInDim S160x192x2048 (![] : Fin 0 → Fin S160x192x2048.rank)
  reducesTo_S160x192x2048_S_d0_1_2 : S160x192x2048.ReducesTo [0, 1, 2] S_
  bcast_S_S160x2048x192 : S_.BroadcastsInDim S160x2048x192 (![] : Fin 0 → Fin S160x2048x192.rank)
  reducesTo_S160x2048x192_S_d0_1_2 : S160x2048x192.ReducesTo [0, 1, 2] S_

variable [Facts]

def fn_part1 {F : FTy → Type} [FloatOps F] (main_arg6 : FVec F S160x192x2048 .f32) (main_arg7 : FVec F S160x2048x192 .f32) (main_v13 : IVec S_ 1) (main_v16 : IVec S160x192x2048 1) : IVec S_ 1 :=
  let main_c_5 : IVec S_ 1 := constantI S_ 1 1#1
  let main_v17 : IVec S_ 1 := (fun x v => Host.reduce IntOp.andi x v reducesTo_S160x192x2048_S_d0_1_2 h_S_) main_v16 main_c_5
  let main_v18 : IVec S_ 1 := andi main_v13 main_v17
  let main_v19 : FVec F S160x192x2048 .f32 := Host.absf main_arg6
  let main_cst_6 : FVec F S_ .f32 := constant S_ .f32 0x7F800000#32
  let main_v20 : FVec F S160x192x2048 .f32 := broadcastInDim S160x192x2048 ![] bcast_S_S160x192x2048 main_cst_6
  let main_v21 : IVec S160x192x2048 1 := cmpf .olt main_v19 main_v20
  let main_c_7 : IVec S_ 1 := constantI S_ 1 1#1
  let main_v22 : IVec S_ 1 := (fun x v => Host.reduce IntOp.andi x v reducesTo_S160x192x2048_S_d0_1_2 h_S_) main_v21 main_c_7
  let main_v23 : IVec S_ 1 := andi main_v18 main_v22
  let main_v24 : FVec F S160x2048x192 .f32 := Host.absf main_arg7
  let main_cst_8 : FVec F S_ .f32 := constant S_ .f32 0x7F800000#32
  let main_v25 : FVec F S160x2048x192 .f32 := broadcastInDim S160x2048x192 ![] bcast_S_S160x2048x192 main_cst_8
  let main_v26 : IVec S160x2048x192 1 := cmpf .olt main_v24 main_v25
  let main_c_9 : IVec S_ 1 := constantI S_ 1 1#1
  let main_v27 : IVec S_ 1 := (fun x v => Host.reduce IntOp.andi x v reducesTo_S160x2048x192_S_d0_1_2 h_S_) main_v26 main_c_9
  let main_v28 : IVec S_ 1 := andi main_v23 main_v27
  main_v28

def fn {F : FTy → Type} [FloatOps F] (main_arg0 : FVec F S3200x2048 .f32) (main_arg1 : IVec S160x120 32) (main_arg2 : IVec S19200 32) (main_arg3 : FVec F S6x3200x1 .f32) (main_arg4 : FVec F S1x3200x2048 .f32) (main_arg5 : FVec F S160x192x2048 .f32) (main_arg6 : FVec F S160x192x2048 .f32) (main_arg7 : FVec F S160x2048x192 .f32) : IVec S_ 1 :=
  let main_v0 : FVec F S3200x2048 .f32 := Host.absf main_arg0
  let main_cst : FVec F S_ .f32 := constant S_ .f32 0x7F800000#32
  let main_v1 : FVec F S3200x2048 .f32 := broadcastInDim S3200x2048 ![] bcast_S_S3200x2048 main_cst
  let main_v2 : IVec S3200x2048 1 := cmpf .olt main_v0 main_v1
  let main_c : IVec S_ 1 := constantI S_ 1 1#1
  let main_v3 : IVec S_ 1 := (fun x v => Host.reduce IntOp.andi x v reducesTo_S3200x2048_S_d0_1 h_S_) main_v2 main_c
  let main_v4 : FVec F S6x3200x1 .f32 := Host.absf main_arg3
  let main_cst_0 : FVec F S_ .f32 := constant S_ .f32 0x7F800000#32
  let main_v5 : FVec F S6x3200x1 .f32 := broadcastInDim S6x3200x1 ![] bcast_S_S6x3200x1 main_cst_0
  let main_v6 : IVec S6x3200x1 1 := cmpf .olt main_v4 main_v5
  let main_c_1 : IVec S_ 1 := constantI S_ 1 1#1
  let main_v7 : IVec S_ 1 := (fun x v => Host.reduce IntOp.andi x v reducesTo_S6x3200x1_S_d0_1_2 h_S_) main_v6 main_c_1
  let main_v8 : IVec S_ 1 := andi main_v3 main_v7
  let main_v9 : FVec F S1x3200x2048 .f32 := Host.absf main_arg4
  let main_cst_2 : FVec F S_ .f32 := constant S_ .f32 0x7F800000#32
  let main_v10 : FVec F S1x3200x2048 .f32 := broadcastInDim S1x3200x2048 ![] bcast_S_S1x3200x2048 main_cst_2
  let main_v11 : IVec S1x3200x2048 1 := cmpf .olt main_v9 main_v10
  let main_c_3 : IVec S_ 1 := constantI S_ 1 1#1
  let main_v12 : IVec S_ 1 := (fun x v => Host.reduce IntOp.andi x v reducesTo_S1x3200x2048_S_d0_1_2 h_S_) main_v11 main_c_3
  let main_v13 : IVec S_ 1 := andi main_v8 main_v12
  let main_v14 : FVec F S160x192x2048 .f32 := Host.absf main_arg5
  let main_cst_4 : FVec F S_ .f32 := constant S_ .f32 0x7F800000#32
  let main_v15 : FVec F S160x192x2048 .f32 := broadcastInDim S160x192x2048 ![] bcast_S_S160x192x2048 main_cst_4
  let main_v16 : IVec S160x192x2048 1 := cmpf .olt main_v14 main_v15
  fn_part1 (F := F) main_arg6 main_arg7 main_v13 main_v16
-- ==== Kernel.lean ====
abbrev S3200x2048 : Shape := ⟨2, ![3200, 2048]⟩
abbrev S160x120 : Shape := ⟨2, ![160, 120]⟩
abbrev S19200 : Shape := ⟨1, ![19200]⟩
abbrev S6x3200x1 : Shape := ⟨3, ![6, 3200, 1]⟩
abbrev S1x3200x2048 : Shape := ⟨3, ![1, 3200, 2048]⟩
abbrev S160x192x2048 : Shape := ⟨3, ![160, 192, 2048]⟩
abbrev S160x2048x192 : Shape := ⟨3, ![160, 2048, 192]⟩
abbrev S_ : Shape := ⟨0, ![]⟩
abbrev S160x120x1 : Shape := ⟨3, ![160, 120, 1]⟩
abbrev S160x120x2048 : Shape := ⟨3, ![160, 120, 2048]⟩
abbrev S1x120x2048 : Shape := ⟨3, ![1, 120, 2048]⟩
abbrev S1x192x2048 : Shape := ⟨3, ![1, 192, 2048]⟩
abbrev S1x2048x192 : Shape := ⟨3, ![1, 2048, 192]⟩
abbrev S120x2048 : Shape := ⟨2, ![120, 2048]⟩
abbrev S192x2048 : Shape := ⟨2, ![192, 2048]⟩
abbrev S120x192 : Shape := ⟨2, ![120, 192]⟩
abbrev S2048x192 : Shape := ⟨2, ![2048, 192]⟩
abbrev S19200x2048 : Shape := ⟨2, ![19200, 2048]⟩
abbrev S19200x1 : Shape := ⟨2, ![19200, 1]⟩
abbrev S6x3200x2048 : Shape := ⟨3, ![6, 3200, 2048]⟩
abbrev S6x320x2048 : Shape := ⟨3, ![6, 320, 2048]⟩
abbrev S6x320x1 : Shape := ⟨3, ![6, 320, 1]⟩
abbrev S320x2048 : Shape := ⟨2, ![320, 2048]⟩
abbrev S1x320x1 : Shape := ⟨3, ![1, 320, 1]⟩
abbrev S320x1 : Shape := ⟨2, ![320, 1]⟩
abbrev S1x320x2048 : Shape := ⟨3, ![1, 320, 2048]⟩

abbrev nBuf : Space → Nat
  | .hbm => 33
  | .vmem => 18
  | .smem => 0
  | _ => 0

abbrev bufTy : (tb : Table) → Fin (tcTables nBuf tb) → BufTy
  | .hbm, ⟨0, _⟩ => ⟨S3200x2048, .f32⟩
  | .hbm, ⟨1, _⟩ => ⟨S160x120, .i32⟩
  | .hbm, ⟨2, _⟩ => ⟨S19200, .i32⟩
  | .hbm, ⟨3, _⟩ => ⟨S6x3200x1, .f32⟩
  | .hbm, ⟨4, _⟩ => ⟨S1x3200x2048, .f32⟩
  | .hbm, ⟨5, _⟩ => ⟨S160x192x2048, .f32⟩
  | .hbm, ⟨6, _⟩ => ⟨S160x192x2048, .f32⟩
  | .hbm, ⟨7, _⟩ => ⟨S160x2048x192, .f32⟩
  | .hbm, ⟨8, _⟩ => ⟨S3200x2048, .bf16⟩
  | .hbm, ⟨9, _⟩ => ⟨S_, .i32⟩
  | .hbm, ⟨10, _⟩ => ⟨S160x120, .i32⟩
  | .hbm, ⟨11, _⟩ => ⟨S160x120, .i1⟩
  | .hbm, ⟨12, _⟩ => ⟨S_, .i32⟩
  | .hbm, ⟨13, _⟩ => ⟨S160x120, .i32⟩
  | .hbm, ⟨14, _⟩ => ⟨S160x120, .i32⟩
  | .hbm, ⟨15, _⟩ => ⟨S160x120, .i32⟩
  | .hbm, ⟨16, _⟩ => ⟨S160x120x1, .i32⟩
  | .hbm, ⟨17, _⟩ => ⟨S160x120x2048, .bf16⟩
  | .hbm, ⟨18, _⟩ => ⟨S160x120x2048, .bf16⟩
  | .hbm, ⟨19, _⟩ => ⟨S19200x2048, .bf16⟩
  | .hbm, ⟨20, _⟩ => ⟨S_, .i32⟩
  | .hbm, ⟨21, _⟩ => ⟨S19200, .i32⟩
  | .hbm, ⟨22, _⟩ => ⟨S19200, .i1⟩
  | .hbm, ⟨23, _⟩ => ⟨S_, .i32⟩
  | .hbm, ⟨24, _⟩ => ⟨S19200, .i32⟩
  | .hbm, ⟨25, _⟩ => ⟨S19200, .i32⟩
  | .hbm, ⟨26, _⟩ => ⟨S19200, .i32⟩
  | .hbm, ⟨27, _⟩ => ⟨S19200x1, .i32⟩
  | .hbm, ⟨28, _⟩ => ⟨S19200x2048, .bf16⟩
  | .hbm, ⟨29, _⟩ => ⟨S6x3200x2048, .bf16⟩
  | .hbm, ⟨30, _⟩ => ⟨S3200x2048, .f32⟩
  | .hbm, ⟨31, _⟩ => ⟨S3200x2048, .f32⟩
  | .hbm, ⟨32, _⟩ => ⟨S1x3200x2048, .f32⟩
  | .local _ .vmem, ⟨0, _⟩ => ⟨S1x120x2048, .bf16⟩
  | .local _ .vmem, ⟨1, _⟩ => ⟨S1x120x2048, .bf16⟩
  | .local _ .vmem, ⟨2, _⟩ => ⟨S1x192x2048, .f32⟩
  | .local _ .vmem, ⟨3, _⟩ => ⟨S1x192x2048, .f32⟩
  | .local _ .vmem, ⟨4, _⟩ => ⟨S1x192x2048, .f32⟩
  | .local _ .vmem, ⟨5, _⟩ => ⟨S1x192x2048, .f32⟩
  | .local _ .vmem, ⟨6, _⟩ => ⟨S1x2048x192, .f32⟩
  | .local _ .vmem, ⟨7, _⟩ => ⟨S1x2048x192, .f32⟩
  | .local _ .vmem, ⟨8, _⟩ => ⟨S1x120x2048, .bf16⟩
  | .local _ .vmem, ⟨9, _⟩ => ⟨S1x120x2048, .bf16⟩
  | .local _ .vmem, ⟨10, _⟩ => ⟨S6x320x2048, .bf16⟩
  | .local _ .vmem, ⟨11, _⟩ => ⟨S6x320x2048, .bf16⟩
  | .local _ .vmem, ⟨12, _⟩ => ⟨S6x320x1, .f32⟩
  | .local _ .vmem, ⟨13, _⟩ => ⟨S6x320x1, .f32⟩
  | .local _ .vmem, ⟨14, _⟩ => ⟨S320x2048, .f32⟩
  | .local _ .vmem, ⟨15, _⟩ => ⟨S320x2048, .f32⟩
  | .local _ .vmem, ⟨16, _⟩ => ⟨S320x2048, .f32⟩
  | .local _ .vmem, ⟨17, _⟩ => ⟨S320x2048, .f32⟩
  | _, _ => ⟨S3200x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![160], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x120x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x192x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x192x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x120x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6x320x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6x320x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S320x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S320x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bitsLt_bf16_f32 : FTy.bits .bf16 < FTy.bits .f32
  bcast_S_S160x120 : S_.BroadcastsInDim S160x120 (![] : Fin 0 → Fin S160x120.rank)
  bcast_S160x120_S160x120x1_0_1 : S160x120.BroadcastsInDim S160x120x1 (![0, 1] : Fin 2 → Fin S160x120x1.rank)
  inb_S1x120x2048_S1x120x2048_0_0_0 : ∀ a, (![0, 0, 0] : Fin 3 → Nat) a + S1x120x2048.size a ≤ S1x120x2048.size a
  h_S1x120x2048 : 0 < S1x120x2048.numel
  shapeCasts_S1x120x2048_S120x2048 : S1x120x2048.ShapeCasts S120x2048
  inb_S1x192x2048_S1x192x2048_0_0_0 : ∀ a, (![0, 0, 0] : Fin 3 → Nat) a + S1x192x2048.size a ≤ S1x192x2048.size a
  h_S1x192x2048 : 0 < S1x192x2048.numel
  shapeCasts_S1x192x2048_S192x2048 : S1x192x2048.ShapeCasts S192x2048
  inb_S1x2048x192_S1x2048x192_0_0_0 : ∀ a, (![0, 0, 0] : Fin 3 → Nat) a + S1x2048x192.size a ≤ S1x2048x192.size a
  h_S1x2048x192 : 0 < S1x2048x192.numel
  shapeCasts_S1x2048x192_S2048x192 : S1x2048x192.ShapeCasts S2048x192
  shapeCasts_S120x2048_S1x120x2048 : S120x2048.ShapeCasts S1x120x2048
  packedbf16_S1x120x2048_S1x120x2048_0_0_0 : (Rect.unit (s := S1x120x2048) ![0, 0, 0] S1x120x2048.size inb_S1x120x2048_S1x120x2048_0_0_0).PackedRows (EltTy.packing .bf16)
  shapeCasts_S160x120x2048_S19200x2048 : S160x120x2048.ShapeCasts S19200x2048
  bcast_S_S19200 : S_.BroadcastsInDim S19200 (![] : Fin 0 → Fin S19200.rank)
  bcast_S19200_S19200x1_0 : S19200.BroadcastsInDim S19200x1 (![0] : Fin 1 → Fin S19200x1.rank)
  shapeCasts_S19200x2048_S6x3200x2048 : S19200x2048.ShapeCasts S6x3200x2048
  shapeCasts_S1x3200x2048_S3200x2048 : S1x3200x2048.ShapeCasts S3200x2048
  inb_S6x320x1_S1x320x1_0_0_0 : ∀ a, (![0, 0, 0] : Fin 3 → Nat) a + S1x320x1.size a ≤ S6x320x1.size a
  h_S1x320x1 : 0 < S1x320x1.numel
  shapeCasts_S1x320x1_S320x1 : S1x320x1.ShapeCasts S320x1
  inb_S6x320x2048_S1x320x2048_0_0_0 : ∀ a, (![0, 0, 0] : Fin 3 → Nat) a + S1x320x2048.size a ≤ S6x320x2048.size a
  h_S1x320x2048 : 0 < S1x320x2048.numel
  shapeCasts_S1x320x2048_S320x2048 : S1x320x2048.ShapeCasts S320x2048
  broadcasts_S320x1_S320x2048 : S320x1.Broadcasts S320x2048
  inb_S6x320x1_S1x320x1_1_0_0 : ∀ a, (![1, 0, 0] : Fin 3 → Nat) a + S1x320x1.size a ≤ S6x320x1.size a
  inb_S6x320x2048_S1x320x2048_1_0_0 : ∀ a, (![1, 0, 0] : Fin 3 → Nat) a + S1x320x2048.size a ≤ S6x320x2048.size a
  inb_S6x320x1_S1x320x1_2_0_0 : ∀ a, (![2, 0, 0] : Fin 3 → Nat) a + S1x320x1.size a ≤ S6x320x1.size a
  inb_S6x320x2048_S1x320x2048_2_0_0 : ∀ a, (![2, 0, 0] : Fin 3 → Nat) a + S1x320x2048.size a ≤ S6x320x2048.size a
  inb_S6x320x1_S1x320x1_3_0_0 : ∀ a, (![3, 0, 0] : Fin 3 → Nat) a + S1x320x1.size a ≤ S6x320x1.size a
  inb_S6x320x2048_S1x320x2048_3_0_0 : ∀ a, (![3, 0, 0] : Fin 3 → Nat) a + S1x320x2048.size a ≤ S6x320x2048.size a
  inb_S6x320x1_S1x320x1_4_0_0 : ∀ a, (![4, 0, 0] : Fin 3 → Nat) a + S1x320x1.size a ≤ S6x320x1.size a
  inb_S6x320x2048_S1x320x2048_4_0_0 : ∀ a, (![4, 0, 0] : Fin 3 → Nat) a + S1x320x2048.size a ≤ S6x320x2048.size a
  inb_S6x320x1_S1x320x1_5_0_0 : ∀ a, (![5, 0, 0] : Fin 3 → Nat) a + S1x320x1.size a ≤ S6x320x1.size a
  inb_S6x320x2048_S1x320x2048_5_0_0 : ∀ a, (![5, 0, 0] : Fin 3 → Nat) a + S1x320x2048.size a ≤ S6x320x2048.size a
  inb_S320x2048_S320x2048_0_0 : ∀ a, (![0, 0] : Fin 2 → Nat) a + S320x2048.size a ≤ S320x2048.size a
  h_S320x2048 : 0 < S320x2048.numel
  shapeCasts_S320x2048_S320x2048 : S320x2048.ShapeCasts S320x2048
  shapeCasts_S3200x2048_S1x3200x2048 : S3200x2048.ShapeCasts S1x3200x2048
  gather_S3200x2048_S160x120x1_S160x120x2048_2_0_n_n_0_2_12048_wf : GatherDims.WF S3200x2048 S160x120x1 S160x120x2048 [2] [0] [] [0] [] 2 ![1, 2048]
  dot_S120x2048_S192x2048_S120x192_1_1_0_0_n_n_wf : DotDims.WF S120x2048 S192x2048 S120x192 [1] [1] [0] [0] [] []
  dot_S120x192_S2048x192_S120x2048_1_1_0_0_n_n_wf : DotDims.WF S120x192 S2048x192 S120x2048 [1] [1] [0] [0] [] []
  gather_S19200x2048_S19200x1_S19200x2048_1_0_n_n_0_1_12048_wf : GatherDims.WF S19200x2048 S19200x1 S19200x2048 [1] [0] [] [0] [] 1 ![1, 2048]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x120x2048.size a ≤ S160x120x2048.size a
  hwx0_0 : ∀ i : grid0.Coords, EltTy.bits .bf16 = 32 ∨ (Rect.block (s := S160x120x2048) S1x120x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x192x2048.size a ≤ S160x192x2048.size a
  hwx0_1 : ∀ i : grid0.Coords, EltTy.bits .f32 = 32 ∨ (Rect.block (s := S160x192x2048) S1x192x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x192x2048.size a ≤ S160x192x2048.size a
  hwx0_2 : ∀ i : grid0.Coords, EltTy.bits .f32 = 32 ∨ (Rect.block (s := S160x192x2048) S1x192x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x192.size a ≤ S160x2048x192.size a
  hwx0_3 : ∀ i : grid0.Coords, EltTy.bits .f32 = 32 ∨ (Rect.block (s := S160x2048x192) S1x2048x192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x120x2048.size a ≤ S160x120x2048.size a
  hwx0_4 : ∀ i : grid0.Coords, EltTy.bits .bf16 = 32 ∨ (Rect.block (s := S160x120x2048) S1x120x2048.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6x320x2048.size a ≤ S6x3200x2048.size a
  hwx1_0 : ∀ i : grid1.Coords, EltTy.bits .bf16 = 32 ∨ (Rect.block (s := S6x3200x2048) S6x320x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6x320x1.size a ≤ S6x3200x1.size a
  hwx1_1 : ∀ i : grid1.Coords, EltTy.bits .f32 = 32 ∨ (Rect.block (s := S6x3200x1) S6x320x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S320x2048.size a ≤ S3200x2048.size a
  hwx1_2 : ∀ i : grid1.Coords, EltTy.bits .f32 = 32 ∨ (Rect.block (s := S3200x2048) S320x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S320x2048.size a ≤ S3200x2048.size a
  hwx1_3 : ∀ i : grid1.Coords, EltTy.bits .f32 = 32 ∨ (Rect.block (s := S3200x2048) S320x2048.size (cc1_transform_3 i) (hinb1_3 i)).WholeWords (EltTy.packing .f32)

variable [Facts₀]

def gather_S3200x2048_S160x120x1_S160x120x2048_2_0_n_n_0_2_12048 : GatherDims S3200x2048 S160x120x1 S160x120x2048 where
  offsetDims := [2]
  collapsedSliceDims := [0]
  operandBatchingDims := []
  startIndicesBatchingDims := []
  startIndexMap := [0]
  indexVectorDim := 2
  sliceSizes := ![1, 2048]
  wf := gather_S3200x2048_S160x120x1_S160x120x2048_2_0_n_n_0_2_12048_wf
def dot_S120x2048_S192x2048_S120x192_1_1_0_0_n_n : DotDims S120x2048 S192x2048 S120x192 where
  lhsContracting := [1]
  rhsContracting := [1]
  lhsNonContracting := [0]
  rhsNonContracting := [0]
  lhsBatch := []
  rhsBatch := []
  wf := dot_S120x2048_S192x2048_S120x192_1_1_0_0_n_n_wf
def dot_S120x192_S2048x192_S120x2048_1_1_0_0_n_n : DotDims S120x192 S2048x192 S120x2048 where
  lhsContracting := [1]
  rhsContracting := [1]
  lhsNonContracting := [0]
  rhsNonContracting := [0]
  lhsBatch := []
  rhsBatch := []
  wf := dot_S120x192_S2048x192_S120x2048_1_1_0_0_n_n_wf
def gather_S19200x2048_S19200x1_S19200x2048_1_0_n_n_0_1_12048 : GatherDims S19200x2048 S19200x1 S19200x2048 where
  offsetDims := [1]
  collapsedSliceDims := [0]
  operandBatchingDims := []
  startIndicesBatchingDims := []
  startIndexMap := [0]
  indexVectorDim := 1
  sliceSizes := ![1, 2048]
  wf := gather_S19200x2048_S19200x1_S19200x2048_1_0_n_n_0_1_12048_wf

abbrev win0_0 : Pipeline.Window sig grid0 :=
  Pipeline.Window.ofSpec (Memref.whole main_v7) S1x120x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S1x192x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S1x192x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S1x2048x192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x120x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v17) S6x320x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S6x320x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S320x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S320x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S3200x2048 : Shape := ⟨2, ![3200, 2048]⟩
abbrev S160x120 : Shape := ⟨2, ![160, 120]⟩
abbrev S19200 : Shape := ⟨1, ![19200]⟩
abbrev S6x3200x1 : Shape := ⟨3, ![6, 3200, 1]⟩
abbrev S1x3200x2048 : Shape := ⟨3, ![1, 3200, 2048]⟩
abbrev S160x192x2048 : Shape := ⟨3, ![160, 192, 2048]⟩
abbrev S160x2048x192 : Shape := ⟨3, ![160, 2048, 192]⟩
abbrev S_ : Shape := ⟨0, ![]⟩
abbrev S160x120x1 : Shape := ⟨3, ![160, 120, 1]⟩
abbrev S160x120x2048 : Shape := ⟨3, ![160, 120, 2048]⟩
abbrev S160x120x192 : Shape := ⟨3, ![160, 120, 192]⟩
abbrev S19200x2048 : Shape := ⟨2, ![19200, 2048]⟩
abbrev S19200x1 : Shape := ⟨2, ![19200, 1]⟩
abbrev S6x3200x2048 : Shape := ⟨3, ![6, 3200, 2048]⟩

abbrev nBuf : Space → Nat
  | .hbm => 47
  | .vmem => 0
  | .smem => 0
  | _ => 0

abbrev bufTy : (tb : Table) → Fin (tcTables nBuf tb) → BufTy
  | .hbm, ⟨0, _⟩ => ⟨S3200x2048, .f32⟩
  | .hbm, ⟨1, _⟩ => ⟨S160x120, .i32⟩
  | .hbm, ⟨2, _⟩ => ⟨S19200, .i32⟩
  | .hbm, ⟨3, _⟩ => ⟨S6x3200x1, .f32⟩
  | .hbm, ⟨4, _⟩ => ⟨S1x3200x2048, .f32⟩
  | .hbm, ⟨5, _⟩ => ⟨S160x192x2048, .f32⟩
  | .hbm, ⟨6, _⟩ => ⟨S160x192x2048, .f32⟩
  | .hbm, ⟨7, _⟩ => ⟨S160x2048x192, .f32⟩
  | .hbm, ⟨8, _⟩ => ⟨S_, .i32⟩
  | .hbm, ⟨9, _⟩ => ⟨S160x120, .i32⟩
  | .hbm, ⟨10, _⟩ => ⟨S160x120, .i1⟩
  | .hbm, ⟨11, _⟩ => ⟨S_, .i32⟩
  | .hbm, ⟨12, _⟩ => ⟨S160x120, .i32⟩
  | .hbm, ⟨13, _⟩ => ⟨S160x120, .i32⟩
  | .hbm, ⟨14, _⟩ => ⟨S160x120, .i32⟩
  | .hbm, ⟨15, _⟩ => ⟨S160x120x1, .i32⟩
  | .hbm, ⟨16, _⟩ => ⟨S160x120x2048, .f32⟩
  | .hbm, ⟨17, _⟩ => ⟨S160x120x192, .f32⟩
  | .hbm, ⟨18, _⟩ => ⟨S160x120x192, .f32⟩
  | .hbm, ⟨19, _⟩ => ⟨S160x120x192, .f32⟩
  | .hbm, ⟨20, _⟩ => ⟨S160x120x192, .f32⟩
  | .hbm, ⟨21, _⟩ => ⟨S_, .f32⟩
  | .hbm, ⟨22, _⟩ => ⟨S160x120x192, .f32⟩
  | .hbm, ⟨23, _⟩ => ⟨S160x120x192, .f32⟩
  | .hbm, ⟨24, _⟩ => ⟨S_, .f32⟩
  | .hbm, ⟨25, _⟩ => ⟨S160x120x192, .f32⟩
  | .hbm, ⟨26, _⟩ => ⟨S160x120x192, .f32⟩
  | .hbm, ⟨27, _⟩ => ⟨S160x120x192, .f32⟩
  | .hbm, ⟨28, _⟩ => ⟨S160x120x192, .f32⟩
  | .hbm, ⟨29, _⟩ => ⟨S160x120x2048, .f32⟩
  | .hbm, ⟨30, _⟩ => ⟨S19200x2048, .f32⟩
  | .hbm, ⟨31, _⟩ => ⟨S_, .i32⟩
  | .hbm, ⟨32, _⟩ => ⟨S19200, .i32⟩
  | .hbm, ⟨33, _⟩ => ⟨S19200, .i1⟩
  | .hbm, ⟨34, _⟩ => ⟨S_, .i32⟩
  | .hbm, ⟨35, _⟩ => ⟨S19200, .i32⟩
  | .hbm, ⟨36, _⟩ => ⟨S19200, .i32⟩
  | .hbm, ⟨37, _⟩ => ⟨S19200, .i32⟩
  | .hbm, ⟨38, _⟩ => ⟨S19200x1, .i32⟩
  | .hbm, ⟨39, _⟩ => ⟨S19200x2048, .f32⟩
  | .hbm, ⟨40, _⟩ => ⟨S6x3200x2048, .f32⟩
  | .hbm, ⟨41, _⟩ => ⟨S6x3200x2048, .f32⟩
  | .hbm, ⟨42, _⟩ => ⟨S6x3200x2048, .f32⟩
  | .hbm, ⟨43, _⟩ => ⟨S_, .f32⟩
  | .hbm, ⟨44, _⟩ => ⟨S3200x2048, .f32⟩
  | .hbm, ⟨45, _⟩ => ⟨S1x3200x2048, .f32⟩
  | .hbm, ⟨46, _⟩ => ⟨S1x3200x2048, .f32⟩
  | _, _ => ⟨S3200x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c_1 : Ref sig .tc := ⟨.hbm, 31, rfl⟩
abbrev main_v13 : Ref sig .tc := ⟨.hbm, 32, rfl⟩
abbrev main_v14 : Ref sig .tc := ⟨.hbm, 33, rfl⟩
abbrev main_c_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩

abbrev nD : Nat := 1
abbrev τ : Topo := Topo.v7x

variable {F : FTy → Type} [FloatOps F]

class Facts₀ : Prop where
  bcast_S_S160x120 : S_.BroadcastsInDim S160x120 (![] : Fin 0 → Fin S160x120.rank)
  bcast_S160x120_S160x120x1_0_1 : S160x120.BroadcastsInDim S160x120x1 (![0, 1] : Fin 2 → Fin S160x120x1.rank)
  bcast_S_S160x120x192 : S_.BroadcastsInDim S160x120x192 (![] : Fin 0 → Fin S160x120x192.rank)
  shapeCasts_S160x120x2048_S19200x2048 : S160x120x2048.ShapeCasts S19200x2048
  bcast_S_S19200 : S_.BroadcastsInDim S19200 (![] : Fin 0 → Fin S19200.rank)
  bcast_S19200_S19200x1_0 : S19200.BroadcastsInDim S19200x1 (![0] : Fin 1 → Fin S19200x1.rank)
  shapeCasts_S19200x2048_S6x3200x2048 : S19200x2048.ShapeCasts S6x3200x2048
  bcast_S6x3200x1_S6x3200x2048_0_1_2 : S6x3200x1.BroadcastsInDim S6x3200x2048 (![0, 1, 2] : Fin 3 → Fin S6x3200x2048.rank)
  reducesTo_S6x3200x2048_S3200x2048_d0 : S6x3200x2048.ReducesTo [0] S3200x2048
  h_S_ : 0 < S_.numel
  bcast_S3200x2048_S1x3200x2048_1_2 : S3200x2048.BroadcastsInDim S1x3200x2048 (![1, 2] : Fin 2 → Fin S1x3200x2048.rank)
  gather_S3200x2048_S160x120x1_S160x120x2048_2_0_n_n_0_2_12048_wf : GatherDims.WF S3200x2048 S160x120x1 S160x120x2048 [2] [0] [] [0] [] 2 ![1, 2048]
  dot_S160x120x2048_S160x192x2048_S160x120x192_2_2_1_1_0_0_wf : DotDims.WF S160x120x2048 S160x192x2048 S160x120x192 [2] [2] [1] [1] [0] [0]
  dot_S160x120x192_S160x2048x192_S160x120x2048_2_2_1_1_0_0_wf : DotDims.WF S160x120x192 S160x2048x192 S160x120x2048 [2] [2] [1] [1] [0] [0]
  gather_S19200x2048_S19200x1_S19200x2048_1_0_n_n_0_1_12048_wf : GatherDims.WF S19200x2048 S19200x1 S19200x2048 [1] [0] [] [0] [] 1 ![1, 2048]

variable [Facts₀]

def gather_S3200x2048_S160x120x1_S160x120x2048_2_0_n_n_0_2_12048 : GatherDims S3200x2048 S160x120x1 S160x120x2048 where
  offsetDims := [2]
  collapsedSliceDims := [0]
  operandBatchingDims := []
  startIndicesBatchingDims := []
  startIndexMap := [0]
  indexVectorDim := 2
  sliceSizes := ![1, 2048]
  wf := gather_S3200x2048_S160x120x1_S160x120x2048_2_0_n_n_0_2_12048_wf
def dot_S160x120x2048_S160x192x2048_S160x120x192_2_2_1_1_0_0 : DotDims S160x120x2048 S160x192x2048 S160x120x192 where
  lhsContracting := [2]
  rhsContracting := [2]
  lhsNonContracting := [1]
  rhsNonContracting := [1]
  lhsBatch := [0]
  rhsBatch := [0]
  wf := dot_S160x120x2048_S160x192x2048_S160x120x192_2_2_1_1_0_0_wf
def dot_S160x120x192_S160x2048x192_S160x120x2048_2_2_1_1_0_0 : DotDims S160x120x192 S160x2048x192 S160x120x2048 where
  lhsContracting := [2]
  rhsContracting := [2]
  lhsNonContracting := [1]
  rhsNonContracting := [1]
  lhsBatch := [0]
  rhsBatch := [0]
  wf := dot_S160x120x192_S160x2048x192_S160x120x2048_2_2_1_1_0_0_wf
def gather_S19200x2048_S19200x1_S19200x2048_1_0_n_n_0_1_12048 : GatherDims S19200x2048 S19200x1 S19200x2048 where
  offsetDims := [1]
  collapsedSliceDims := [0]
  operandBatchingDims := []
  startIndicesBatchingDims := []
  startIndexMap := [0]
  indexVectorDim := 1
  sliceSizes := ![1, 2048]
  wf := gather_S19200x2048_S19200x1_S19200x2048_1_0_n_n_0_1_12048_wf

class Facts : Prop extends Facts₀ where

variable [Facts]
-- ==== Proof.KernelRun.lean ====
/-
  The idealized kernel program's run with its RESULT named. The program is two kernel launches among three
  stretches of host operations; its buffers at each boundary are a fold from the launch memory (host stretch,
  first launch's write-backs, host stretch, second launch's write-backs, host stretch). Every weakly fair
  execution terminates with every unscoped buffer at the last boundary's contents; read at the result buffer
  that is the fold's value there, and at each argument the launch contents.
-/
import proofs.«117599_j47459388621300_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v20) = W5 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v20 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.RunValue

end
-- ==== Proof.HostChain.lean ====
/-
  The host operations around the two kernels, read at the buffers the kernels take and leave: before the first
  launch the tokens are gathered by expert; between the launches the experts' outputs are flattened, permuted
  and regrouped by routing slot, and the shared term loses its unit axis; after the second launch the result
  regains its unit axis. Each stretch is read over an arbitrary valuation of the buffers, so that nothing
  upstream is opened.
-/
import proofs.«117599_j47459388621300_2_alg».proof.Proof.Gen.KernelIdeal.Frame
import proofs.«117599_j47459388621300_2_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostChain

open Cert.KernelIdeal Cert.KernelIdeal.Gen
open Idealize.ShloMosaic Idealize.ShloMosaic.TcCoe Idealize.SL.Sem Idealize.ShloMosaic.StableHlo
open Idealize.ShloMosaic.ValueIdx

/-- The regrouping between the two launches, as a function of the experts' outputs and the permutation words:
    flatten [160,120,2048] to [19200,2048], gather rows by the (wrapped, clamped) words, regroup to [6,3200,2048]. -/
def regroup (o : Cert.ReferenceIdeal.S160x120x2048.Idx → EReal) (x2 : Cert.ReferenceIdeal.S19200.Idx → BitVec 32) :
    Cert.ReferenceIdeal.S6x3200x2048.Idx → EReal :=
  shapeCast _ (Host.gather Cert.ReferenceIdeal.gather_S19200x2048_S19200x1_S19200x2048_1_0_n_n_0_1_12048
    (shapeCast _ o Cert.ReferenceIdeal.Gen.shapeCasts_S160x120x2048_S19200x2048)
    (Cert.ReferenceIdeal.Read.val_main_v18 (F := Ideal) x2)) Cert.ReferenceIdeal.Gen.shapeCasts_S19200x2048_S6x3200x2048

/-- The reference's regrouped array is `regroup` of its experts' outputs. -/
theorem ref_regroup (x0 : Cert.ReferenceIdeal.S3200x2048.Idx → EReal) (x1 : Cert.ReferenceIdeal.S160x120.Idx → BitVec 32)
    (x2 : Cert.ReferenceIdeal.S19200.Idx → BitVec 32)
    (x5 x6 : Cert.ReferenceIdeal.S160x192x2048.Idx → EReal) (x7 : Cert.ReferenceIdeal.S160x2048x192.Idx → EReal) :
    Cert.ReferenceIdeal.Read.val_main_v20 (F := Ideal) x0 x1 x2 x5 x6 x7
      = regroup (Cert.ReferenceIdeal.Read.val_main_v11 (F := Ideal) x0 x1 x5 x6 x7) x2 := rfl

section Stretches
variable (X : Valuation τ sig (Elt Ideal))

/-- Before the first launch: the gathered tokens are the reference's (narrowing to bf16 is the identity on
    extended reals). -/
theorem tokens_entry :
    (StableHlo.after (hostOps0 (F := Ideal)) X (Proc.devRef .tc main_v7) : S160x120x2048.Idx → EReal)
      = Cert.ReferenceIdeal.Read.val_main_v6 (F := Ideal) (X (Proc.devRef .tc main_arg0)) (X (Proc.devRef .tc main_arg1)) := by
  after_results
  rfl

theorem gate_entry : StableHlo.after (hostOps0 (F := Ideal)) X (Proc.devRef .tc main_arg5) = X (Proc.devRef .tc main_arg5) := by
  after_results
theorem up_entry : StableHlo.after (hostOps0 (F := Ideal)) X (Proc.devRef .tc main_arg6) = X (Proc.devRef .tc main_arg6) := by
  after_results
theorem down_entry : StableHlo.after (hostOps0 (F := Ideal)) X (Proc.devRef .tc main_arg7) = X (Proc.devRef .tc main_arg7) := by
  after_results
theorem words_entry : StableHlo.after (hostOps0 (F := Ideal)) X (Proc.devRef .tc main_arg2) = X (Proc.devRef .tc main_arg2) := by
  after_results
theorem weights_entry : StableHlo.after (hostOps0 (F := Ideal)) X (Proc.devRef .tc main_arg3) = X (Proc.devRef .tc main_arg3) := by
  after_results
theorem shared_entry : StableHlo.after (hostOps0 (F := Ideal)) X (Proc.devRef .tc main_arg4) = X (Proc.devRef .tc main_arg4) := by
  after_results

/-- Between the launches: the second launch's first operand is `regroup` of the first launch's output. -/
theorem flat_entry :
    (StableHlo.after (hostOps1 (F := Ideal)) X (Proc.devRef .tc main_v17) : S6x3200x2048.Idx → EReal)
      = regroup (X (Proc.devRef .tc main_v8)) (X (Proc.devRef .tc main_arg2)) := by
  after_results
  rfl

theorem weights_mid : StableHlo.after (hostOps1 (F := Ideal)) X (Proc.devRef .tc main_arg3) = X (Proc.devRef .tc main_arg3) := by
  after_results

/-- Between the launches: the shared term [1,3200,2048] viewed as [3200,2048]. -/
theorem shared_mid :
    (StableHlo.after (hostOps1 (F := Ideal)) X (Proc.devRef .tc main_v18) : S3200x2048.Idx → EReal)
      = shapeCast S3200x2048 (X (Proc.devRef .tc main_arg4) : S1x3200x2048.Idx → EReal) Cert.KernelIdeal.Gen.shapeCasts_S1x3200x2048_S3200x2048 := by
  after_results
  rfl

/-- After the second launch: the result [3200,2048] viewed as [1,3200,2048]. -/
theorem result_exit :
    (StableHlo.after (hostOps2 (F := Ideal)) X (Proc.devRef .tc main_v20) : S1x3200x2048.Idx → EReal)
      = shapeCast S1x3200x2048 (X (Proc.devRef .tc main_v19) : S3200x2048.Idx → EReal) Cert.KernelIdeal.Gen.shapeCasts_S3200x2048_S1x3200x2048 := by
  after_results
  rfl

end Stretches

end Cert.KernelIdeal.HostChain

end
-- ==== Proof.Ffn.lean ====
/-
  The first kernel (one expert's gated feed-forward block per grid point) read as a whole array.
-/
import proofs.«117599_j47459388621300_2_alg».proof.Proof.Gen.KernelIdeal.Frame
import proofs.«117599_j47459388621300_2_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Ffn

open Cert.KernelIdeal Cert.KernelIdeal.Gen
open Idealize.ShloMosaic Idealize.ShloMosaic.TcCoe Idealize.SL.Sem
open Idealize.ShloMosaic.Pipeline (Dat)
open Idealize.ShloMosaic.ValueIdx

local notation "dotUp" => dot_S120x2048_S192x2048_S120x192_1_1_0_0_n_n
local notation "dotDown" => dot_S120x192_S2048x192_S120x2048_1_1_0_0_n_n

/-- The operand indices of the two kinds of product, coordinate by coordinate: the left operand is read at
    (row of the entry, shared index), the right operand at (column of the entry, shared index). -/
theorem up_lhs0 (j : S120x192.Idx) (k : (dotUp).contr.Idx) : ((dotUp).lhsIdx j k 0).val = (j 0).val := by
  unfold DotDims.lhsIdx
  rw [dif_neg (show ¬(0 : Fin S120x2048.rank) ∈ (dotUp).lhsBatch by decide), dif_pos (show (0 : Fin S120x2048.rank) ∈ (dotUp).lhsNonContracting by decide)]
  rfl
theorem up_lhs1 (j : S120x192.Idx) (k : (dotUp).contr.Idx) : ((dotUp).lhsIdx j k 1).val = (k ⟨0, by decide⟩).val :=
  (dotUp).lhsIdx_val_of_single rfl j k
theorem up_rhs0 (j : S120x192.Idx) (k : (dotUp).contr.Idx) : ((dotUp).rhsIdx j k 0).val = (j 1).val := by
  unfold DotDims.rhsIdx
  rw [dif_neg (show ¬(0 : Fin S192x2048.rank) ∈ (dotUp).rhsBatch by decide), dif_pos (show (0 : Fin S192x2048.rank) ∈ (dotUp).rhsNonContracting by decide)]
  rfl
theorem up_rhs1 (j : S120x192.Idx) (k : (dotUp).contr.Idx) : ((dotUp).rhsIdx j k 1).val = (k ⟨0, by decide⟩).val :=
  (dotUp).rhsIdx_val_of_single rfl j k
theorem down_lhs0 (j : S120x2048.Idx) (k : (dotDown).contr.Idx) : ((dotDown).lhsIdx j k 0).val = (j 0).val := by
  unfold DotDims.lhsIdx
  rw [dif_neg (show ¬(0 : Fin S120x192.rank) ∈ (dotDown).lhsBatch by decide), dif_pos (show (0 : Fin S120x192.rank) ∈ (dotDown).lhsNonContracting by decide)]
  rfl
theorem down_lhs1 (j : S120x2048.Idx) (k : (dotDown).contr.Idx) : ((dotDown).lhsIdx j k 1).val = (k ⟨0, by decide⟩).val :=
  (dotDown).lhsIdx_val_of_single rfl j k
theorem down_rhs0 (j : S120x2048.Idx) (k : (dotDown).contr.Idx) : ((dotDown).rhsIdx j k 0).val = (j 1).val := by
  unfold DotDims.rhsIdx
  rw [dif_neg (show ¬(0 : Fin S2048x192.rank) ∈ (dotDown).rhsBatch by decide), dif_pos (show (0 : Fin S2048x192.rank) ∈ (dotDown).rhsNonContracting by decide)]
  rfl
theorem down_rhs1 (j : S120x2048.Idx) (k : (dotDown).contr.Idx) : ((dotDown).rhsIdx j k 1).val = (k ⟨0, by decide⟩).val :=
  (dotDown).rhsIdx_val_of_single rfl j k

/-- A product of a [120, 2048] matrix with the transpose of a [192, 2048] matrix, into the zero accumulator, at
    entry (p, i): the sum over the shared axis of the two rows' products. -/
theorem matmul_up_apply (l : FVec Ideal S120x2048 .bf16) (r : FVec Ideal S192x2048 .bf16) (p : Fin 120) (i : Fin 192) :
    matmul dotUp none l r (constant S120x192 .f32 0x00000000#32) (ix2 p i)
      = ∑ k : Fin 2048, l (ix2 p k) * r (ix2 i k) := by
  simp only [matmul]
  rw [Ideal.matmul_constant_zero_apply, ← Equiv.sum_comp (contrEquiv1 dotUp 2048 rfl rfl).symm]
  refine Finset.sum_congr rfl fun k _ => ?_
  have hk := contrEquiv1_symm_val dotUp 2048 rfl rfl k
  have el : (dotUp).lhsIdx (ix2 p i) ((contrEquiv1 dotUp 2048 rfl rfl).symm k) = ix2 p k := funext fun a => Fin.ext (by
    match a with
    | ⟨0, _⟩ => exact up_lhs0 _ _
    | ⟨1, _⟩ => exact (up_lhs1 _ _).trans hk)
  have er : (dotUp).rhsIdx (ix2 p i) ((contrEquiv1 dotUp 2048 rfl rfl).symm k) = ix2 i k := funext fun a => Fin.ext (by
    match a with
    | ⟨0, _⟩ => exact up_rhs0 _ _
    | ⟨1, _⟩ => exact (up_rhs1 _ _).trans hk)
  rw [el, er]

/-- A product of a [120, 192] matrix with the transpose of a [2048, 192] matrix, into the zero accumulator, at
    entry (p, q). -/
theorem matmul_down_apply (l : FVec Ideal S120x192 .bf16) (r : FVec Ideal S2048x192 .bf16) (p : Fin 120) (q : Fin 2048) :
    matmul dotDown none l r (constant S120x2048 .f32 0x00000000#32) (ix2 p q)
      = ∑ i : Fin 192, l (ix2 p i) * r (ix2 q i) := by
  simp only [matmul]
  rw [Ideal.matmul_constant_zero_apply, ← Equiv.sum_comp (contrEquiv1 dotDown 192 rfl rfl).symm]
  refine Finset.sum_congr rfl fun k _ => ?_
  have hk := contrEquiv1_symm_val dotDown 192 rfl rfl k
  have el : (dotDown).lhsIdx (ix2 p q) ((contrEquiv1 dotDown 192 rfl rfl).symm k) = ix2 p k := funext fun a => Fin.ext (by
    match a with
    | ⟨0, _⟩ => exact down_lhs0 _ _
    | ⟨1, _⟩ => exact (down_lhs1 _ _).trans hk)
  have er : (dotDown).rhsIdx (ix2 p q) ((contrEquiv1 dotDown 192 rfl rfl).symm k) = ix2 q k := funext fun a => Fin.ext (by
    match a with
    | ⟨0, _⟩ => exact down_rhs0 _ _
    | ⟨1, _⟩ => exact (down_rhs1 _ _).trans hk)
  rw [el, er]

/-- The logistic function acts entry by entry. -/
theorem logistic_apply {s : Shape} {φ : FTy} (x : FVec Ideal s φ) (i : s.Idx) : logistic x i = Ideal.logistic (x i) := rfl

/-- One expert's gate (or up) projection of token row `p` onto hidden unit `i`. -/
def proj (x : Vec Ideal S1x120x2048 .bf16) (w : Vec Ideal S1x192x2048 .f32) (p : Fin 120) (i : Fin 192) : EReal :=
  ∑ k : Fin 2048, x (ix3 (0 : Fin 1) p k) * w (ix3 (0 : Fin 1) i k)

/-- The body's stored value at row `p`, lane `q`: the gated hidden activations of the row against row `q` of the
    down projection. -/
theorem payload_apply (v0 : Vec Ideal S1x120x2048 .bf16) (v2 v5 : Vec Ideal S1x192x2048 .f32) (v14 : Vec Ideal S1x2048x192 .f32)
    (p : Fin 120) (q : Fin 2048) :
    k0_pay1 v0 v2 v5 v14 (ix3 (0 : Fin 1) p q)
      = ∑ i : Fin 192, ((proj v0 v2 p i * Ideal.logistic (proj v0 v2 p i)) * proj v0 v5 p i) * v14 (ix3 (0 : Fin 1) q i) := by
  unfold k0_pay1
  rw [shapeCast_ab_1ab_apply]
  rw [truncf_apply, matmul_down_apply]
  refine Finset.sum_congr rfl fun i _ => ?_
  rw [truncf_apply, truncf_apply, mulf_apply, mulf_apply, shapeCast_1ab_ab_apply, matmul_up_apply, matmul_up_apply]
  have hg : ∀ (w : FVec Ideal S1x192x2048 .f32),
      (∑ k : Fin 2048, shapeCast S120x2048 v0 shapeCasts_S1x120x2048_S120x2048 (ix2 p k)
        * (truncf .bf16 (shapeCast S192x2048 w shapeCasts_S1x192x2048_S192x2048) bitsLt_bf16_f32 : FVec Ideal S192x2048 .bf16) (ix2 i k)) = proj v0 w p i := fun w =>
    Finset.sum_congr rfl fun k _ => by rw [truncf_apply, shapeCast_1ab_ab_apply, shapeCast_1ab_ab_apply]
  rw [logistic_apply, matmul_up_apply, hg v2, hg v5]

/-! ## The reference's experts' output at an entry -/

/-- The word of 1.0 is the real number one. -/
theorem one_word : Ideal.ofBits .f32 0x3F800000#32 = 1 := by
  simp [Ideal.ofBits, Ideal.ieee]
  norm_num [← EReal.coe_mul]

/-- The reference spells the logistic function as 1 / (1 + exp (-g)); that is the function itself. -/
theorem ref_logistic (x0 : Cert.ReferenceIdeal.S3200x2048.Idx → EReal) (x1 : Cert.ReferenceIdeal.S160x120.Idx → BitVec 32)
    (x5 : Cert.ReferenceIdeal.S160x192x2048.Idx → EReal) (j : Cert.ReferenceIdeal.S160x120x192.Idx) :
    Cert.ReferenceIdeal.Read.val_main_call0_v5 (F := Ideal) x0 x1 x5 j
      = Ideal.logistic (Cert.ReferenceIdeal.Read.val_main_v7 (F := Ideal) x0 x1 x5 j) := by
  rw [Cert.ReferenceIdeal.Read.val_main_call0_v5_apply, Cert.ReferenceIdeal.Read.val_main_call0_v4_apply,
    Cert.ReferenceIdeal.Read.val_main_call0_cst_0_apply, Cert.ReferenceIdeal.Read.val_main_call0_v3_apply,
    Cert.ReferenceIdeal.Read.val_main_call0_v2_apply, Cert.ReferenceIdeal.Read.val_main_call0_cst_apply,
    Cert.ReferenceIdeal.Read.val_main_call0_v1_apply, Cert.ReferenceIdeal.Read.val_main_call0_v0_apply]
  show Ideal.div (Ideal.ofBits .f32 0x3F800000#32) (Ideal.ofBits .f32 0x3F800000#32 + Ideal.exp (-_)) = Ideal.div 1 (1 + Ideal.exp (-_))
  rw [one_word]

/-- The reference's experts' output at (e, p, q): the gated hidden activations of token row (e, p) against row q of
    expert e's down projection. -/
theorem ref_ffn_apply (x0 : Cert.ReferenceIdeal.S3200x2048.Idx → EReal) (x1 : Cert.ReferenceIdeal.S160x120.Idx → BitVec 32)
    (x5 x6 : Cert.ReferenceIdeal.S160x192x2048.Idx → EReal) (x7 : Cert.ReferenceIdeal.S160x2048x192.Idx → EReal)
    (e : Fin 160) (p : Fin 120) (q : Fin 2048) :
    Cert.ReferenceIdeal.Read.val_main_v11 (F := Ideal) x0 x1 x5 x6 x7 (ix3 e p q)
      = ∑ i : Fin 192,
          (((∑ k : Fin 2048, Cert.ReferenceIdeal.Read.val_main_v6 (F := Ideal) x0 x1 (ix3 e p k) * x5 (ix3 e i k))
              * Ideal.logistic (∑ k : Fin 2048, Cert.ReferenceIdeal.Read.val_main_v6 (F := Ideal) x0 x1 (ix3 e p k) * x5 (ix3 e i k)))
            * (∑ k : Fin 2048, Cert.ReferenceIdeal.Read.val_main_v6 (F := Ideal) x0 x1 (ix3 e p k) * x6 (ix3 e i k)))
          * x7 (ix3 e q i) := by
  rw [Cert.ReferenceIdeal.Read.val_main_v11_apply]
  refine Finset.sum_congr rfl fun i _ => ?_
  have hl : Cert.ReferenceIdeal.Read.lidx_main_v11 (ix3 e p q) i = ix3 e p i :=
    funext fun a => Fin.ext (by match a with | ⟨0, _⟩ => rfl | ⟨1, _⟩ => rfl | ⟨2, _⟩ => rfl)
  have hr : Cert.ReferenceIdeal.Read.ridx_main_v11 (ix3 e p q) i = ix3 e q i :=
    funext fun a => Fin.ext (by match a with | ⟨0, _⟩ => rfl | ⟨1, _⟩ => rfl | ⟨2, _⟩ => rfl)
  have hl7 : ∀ k : Fin 2048, Cert.ReferenceIdeal.Read.lidx_main_v7 (ix3 e p i) k = ix3 e p k := fun k =>
    funext fun a => Fin.ext (by match a with | ⟨0, _⟩ => rfl | ⟨1, _⟩ => rfl | ⟨2, _⟩ => rfl)
  have hr7 : ∀ k : Fin 2048, Cert.ReferenceIdeal.Read.ridx_main_v7 (ix3 e p i) k = ix3 e i k := fun k =>
    funext fun a => Fin.ext (by match a with | ⟨0, _⟩ => rfl | ⟨1, _⟩ => rfl | ⟨2, _⟩ => rfl)
  have hl8 : ∀ k : Fin 2048, Cert.ReferenceIdeal.Read.lidx_main_v8 (ix3 e p i) k = ix3 e p k := fun k =>
    funext fun a => Fin.ext (by match a with | ⟨0, _⟩ => rfl | ⟨1, _⟩ => rfl | ⟨2, _⟩ => rfl)
  have hr8 : ∀ k : Fin 2048, Cert.ReferenceIdeal.Read.ridx_main_v8 (ix3 e p i) k = ix3 e i k := fun k =>
    funext fun a => Fin.ext (by match a with | ⟨0, _⟩ => rfl | ⟨1, _⟩ => rfl | ⟨2, _⟩ => rfl)
  rw [hl, hr, Cert.ReferenceIdeal.Read.val_main_v10_apply, Cert.ReferenceIdeal.Read.val_main_v9_apply, ref_logistic,
    Cert.ReferenceIdeal.Read.val_main_v7_apply, Cert.ReferenceIdeal.Read.val_main_v8_apply]
  simp only [hl7, hr7, hl8, hr8]
  rfl

/-- One grid point: if the four loaded blocks are expert `e`'s rows of the gathered tokens and of the three weight
    arrays, the stored block is expert `e`'s rows of the reference's experts' output. -/
theorem point_eq (x0 : Cert.ReferenceIdeal.S3200x2048.Idx → EReal) (x1 : Cert.ReferenceIdeal.S160x120.Idx → BitVec 32)
    (x5 x6 : Cert.ReferenceIdeal.S160x192x2048.Idx → EReal) (x7 : Cert.ReferenceIdeal.S160x2048x192.Idx → EReal)
    (B0 : Vec Ideal S1x120x2048 .bf16) (B1 B2 : Vec Ideal S1x192x2048 .f32) (B3 : Vec Ideal S1x2048x192 .f32) (e : Fin 160)
    (h0 : ∀ (p : Fin 120) (k : Fin 2048), B0 (ix3 (0 : Fin 1) p k) = Cert.ReferenceIdeal.Read.val_main_v6 (F := Ideal) x0 x1 (ix3 e p k))
    (h1 : ∀ (i : Fin 192) (k : Fin 2048), B1 (ix3 (0 : Fin 1) i k) = x5 (ix3 e i k))
    (h2 : ∀ (i : Fin 192) (k : Fin 2048), B2 (ix3 (0 : Fin 1) i k) = x6 (ix3 e i k))
    (h3 : ∀ (q : Fin 2048) (i : Fin 192), B3 (ix3 (0 : Fin 1) q i) = x7 (ix3 e q i))
    (p : Fin 120) (q : Fin 2048) :
    k0_pay1 B0 B1 B2 B3 (ix3 (0 : Fin 1) p q) = Cert.ReferenceIdeal.Read.val_main_v11 (F := Ideal) x0 x1 x5 x6 x7 (ix3 e p q) := by
  rw [payload_apply, ref_ffn_apply]
  refine Finset.sum_congr rfl fun i _ => ?_
  have hg : proj B0 B1 p i = ∑ k : Fin 2048, Cert.ReferenceIdeal.Read.val_main_v6 (F := Ideal) x0 x1 (ix3 e p k) * x5 (ix3 e i k) :=
    Finset.sum_congr rfl fun k _ => by rw [h0, h1]
  have hu : proj B0 B2 p i = ∑ k : Fin 2048, Cert.ReferenceIdeal.Read.val_main_v6 (F := Ideal) x0 x1 (ix3 e p k) * x6 (ix3 e i k) :=
    Finset.sum_congr rfl fun k _ => by rw [h0, h2]
  rw [hg, hu, h3]

/-! ## From the grid points' blocks to the whole array -/

section Array

variable (V : (c : Dev nD) → (b : Ref sig .tc) → Buf (Elt Ideal) ((c : Thread nD τ).loc b))

theorem hz3 : (![0, 0, 0] : Fin 3 → Nat) = fun _ => 0 := funext fun a => by fin_cases a <;> rfl

/-- Every window of the first launch is indexed by the expert alone: block (t, 0, 0) at grid point t. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-- The tokens' block at point t is expert t's rows of the gathered tokens. -/
theorem tokens_block (c : Dev nD) (t : Fin cfg0.N) (e : Fin 160) (he : e.val = t.val) (p : Fin 120) (k : Fin 2048) :
    (iblk0 V c 0 t : Vec Ideal S1x120x2048 .bf16) (ix3 (0 : Fin 1) p k) = (V c main_v7 : S160x120x2048.Idx → EReal) (ix3 e p k) := by
  obtain ⟨⟨i0, i1, i2⟩, -⟩ := idx_facts t
  unfold iblk0
  rw [View.read_apply]
  show (V c main_v7 : S160x120x2048.Idx → EReal) _ = (V c main_v7 : S160x120x2048.Idx → EReal) _
  congr 1
  funext a
  apply Fin.ext
  match a with
  | ⟨0, _⟩ => show win0_0.index t (0 : Fin 3) * 1 + 1 * (0 : ℕ) = e.val; omega
  | ⟨1, _⟩ => show win0_0.index t (1 : Fin 3) * 120 + 1 * p.val = p.val; omega
  | ⟨2, _⟩ => show win0_0.index t (2 : Fin 3) * 2048 + 1 * k.val = k.val; omega

/-- The gate weights' block at point t is expert t's rows. -/
theorem gate_block (c : Dev nD) (t : Fin cfg0.N) (e : Fin 160) (he : e.val = t.val) (i : Fin 192) (k : Fin 2048) :
    (iblk0 V c 1 t : Vec Ideal S1x192x2048 .f32) (ix3 (0 : Fin 1) i k) = (V c main_arg5 : S160x192x2048.Idx → EReal) (ix3 e i k) := by
  obtain ⟨-, ⟨i0, i1, i2⟩, -⟩ := idx_facts t
  unfold iblk0
  rw [View.read_apply]
  show (V c main_arg5 : S160x192x2048.Idx → EReal) _ = (V c main_arg5 : S160x192x2048.Idx → EReal) _
  congr 1
  funext a
  apply Fin.ext
  match a with
  | ⟨0, _⟩ => show win0_1.index t (0 : Fin 3) * 1 + 1 * (0 : ℕ) = e.val; omega
  | ⟨1, _⟩ => show win0_1.index t (1 : Fin 3) * 192 + 1 * i.val = i.val; omega
  | ⟨2, _⟩ => show win0_1.index t (2 : Fin 3) * 2048 + 1 * k.val = k.val; omega

/-- The up weights' block at point t is expert t's rows. -/
theorem up_block (c : Dev nD) (t : Fin cfg0.N) (e : Fin 160) (he : e.val = t.val) (i : Fin 192) (k : Fin 2048) :
    (iblk0 V c 2 t : Vec Ideal S1x192x2048 .f32) (ix3 (0 : Fin 1) i k) = (V c main_arg6 : S160x192x2048.Idx → EReal) (ix3 e i k) := by
  obtain ⟨-, -, ⟨i0, i1, i2⟩, -⟩ := idx_facts t
  unfold iblk0
  rw [View.read_apply]
  show (V c main_arg6 : S160x192x2048.Idx → EReal) _ = (V c main_arg6 : S160x192x2048.Idx → EReal) _
  congr 1
  funext a
  apply Fin.ext
  match a with
  | ⟨0, _⟩ => show win0_2.index t (0 : Fin 3) * 1 + 1 * (0 : ℕ) = e.val; omega
  | ⟨1, _⟩ => show win0_2.index t (1 : Fin 3) * 192 + 1 * i.val = i.val; omega
  | ⟨2, _⟩ => show win0_2.index t (2 : Fin 3) * 2048 + 1 * k.val = k.val; omega

/-- The down weights' block at point t is expert t's rows. -/
theorem down_block (c : Dev nD) (t : Fin cfg0.N) (e : Fin 160) (he : e.val = t.val) (q : Fin 2048) (i : Fin 192) :
    (iblk0 V c 3 t : Vec Ideal S1x2048x192 .f32) (ix3 (0 : Fin 1) q i) = (V c main_arg7 : S160x2048x192.Idx → EReal) (ix3 e q i) := by
  obtain ⟨-, -, -, ⟨i0, i1, i2⟩, -⟩ := idx_facts t
  unfold iblk0
  rw [View.read_apply]
  show (V c main_arg7 : S160x2048x192.Idx → EReal) _ = (V c main_arg7 : S160x2048x192.Idx → EReal) _
  congr 1
  funext a
  apply Fin.ext
  match a with
  | ⟨0, _⟩ => show win0_3.index t (0 : Fin 3) * 1 + 1 * (0 : ℕ) = e.val; omega
  | ⟨1, _⟩ => show win0_3.index t (1 : Fin 3) * 2048 + 1 * q.val = q.val; omega
  | ⟨2, _⟩ => show win0_3.index t (2 : Fin 3) * 192 + 1 * i.val = i.val; omega

variable (x0 : Cert.ReferenceIdeal.S3200x2048.Idx → EReal) (x1 : Cert.ReferenceIdeal.S160x120.Idx → BitVec 32)
  (x5 x6 : Cert.ReferenceIdeal.S160x192x2048.Idx → EReal) (x7 : Cert.ReferenceIdeal.S160x2048x192.Idx → EReal)

/-- What grid point t stores, entry by entry: expert t's rows of the reference's experts' output. -/
theorem stored_apply (c : Dev nD) (t : Fin cfg0.N)
    (hx : (V c main_v7 : S160x120x2048.Idx → EReal) = Cert.ReferenceIdeal.Read.val_main_v6 (F := Ideal) x0 x1)
    (h5 : (V c main_arg5 : S160x192x2048.Idx → EReal) = x5) (h6 : (V c main_arg6 : S160x192x2048.Idx → EReal) = x6)
    (h7 : (V c main_arg7 : S160x2048x192.Idx → EReal) = x7) (y : S1x120x2048.Idx) :
    k0_pay1 (iblk0 V c 0 t) (iblk0 V c 1 t) (iblk0 V c 2 t) (iblk0 V c 3 t) y
      = Cert.ReferenceIdeal.Read.val_main_v11 (F := Ideal) x0 x1 x5 x6 x7 (((cfg0.win 4).blk t).view.emb y) := by
  obtain ⟨u, p, q, rfl⟩ : ∃ (u : Fin 1) (p : Fin 120) (q : Fin 2048), y = ix3 u p q := ⟨y 0, y 1, y 2, eq_ix3 y⟩
  obtain rfl : u = 0 := Fin.ext (by omega)
  have hN : cfg0.N = 160 := N_0
  let e : Fin 160 := ⟨t.val, by have := t.isLt; omega⟩
  have he : e.val = t.val := rfl
  obtain ⟨-, -, -, -, ⟨i0, i1, i2⟩⟩ := idx_facts t
  have hemb : ((cfg0.win 4).blk t).view.emb (ix3 (0 : Fin 1) p q) = (ix3 e p q : S160x120x2048.Idx) := by
    funext a
    apply Fin.ext
    match a with
    | ⟨0, _⟩ => show win0_4.index t (0 : Fin 3) * 1 + 1 * (0 : ℕ) = e.val; omega
    | ⟨1, _⟩ => show win0_4.index t (1 : Fin 3) * 120 + 1 * p.val = p.val; omega
    | ⟨2, _⟩ => show win0_4.index t (2 : Fin 3) * 2048 + 1 * q.val = q.val; omega
  rw [hemb]
  refine point_eq x0 x1 x5 x6 x7 _ _ _ _ e ?_ ?_ ?_ ?_ p q
  · intro p k; rw [tokens_block V c t e he, hx]
  · intro i k; rw [gate_block V c t e he, h5]
  · intro i k; rw [up_block V c t e he, h6]
  · intro q i; rw [down_block V c t e he, h7]

/-- What grid point t writes back is its block of the reference's experts' output. -/
theorem flushed_eq (c : Dev nD) (t : Fin cfg0.N)
    (hx : (V c main_v7 : S160x120x2048.Idx → EReal) = Cert.ReferenceIdeal.Read.val_main_v6 (F := Ideal) x0 x1)
    (h5 : (V c main_arg5 : S160x192x2048.Idx → EReal) = x5) (h6 : (V c main_arg6 : S160x192x2048.Idx → EReal) = x6)
    (h7 : (V c main_arg7 : S160x2048x192.Idx → EReal) = x7) :
    (dat0 (F := Ideal) V c).flushed 4 t
      = ((cfg0.win 4).blk t).view.read (Elt Ideal) (Cert.ReferenceIdeal.Read.val_main_v11 (F := Ideal) x0 x1 x5 x6 x7) := by
  show (cfg0.win 4).cut (grid0.coords t) ((dat0 V c).after 4 t) = _
  rw [after0_4]
  unfold out0_4
  rw [View.canon_unit_zero hz3]
  simp only [View.ld_unit_zero (S := S1x120x2048) hz3, View.ld_unit_zero (S := S1x192x2048) hz3, View.ld_unit_zero (S := S1x2048x192) hz3]
  funext y
  exact stored_apply V x0 x1 x5 x6 x7 c t hx h5 h6 h7 y

/-- An entry of the output array is in point t's block iff each coordinate is in the block's range. -/
theorem mem_blk (t : Fin cfg0.N) (i : S160x120x2048.Idx) :
    i ∈ ((cfg0.win 4).blk t).view.set ↔ ∀ a : Fin 3, win0_4.index t a * S1x120x2048.size a ≤ (i a).val ∧ (i a).val < win0_4.index t a * S1x120x2048.size a + S1x120x2048.size a := by
  show i ∈ ((View.whole main_v8).slice (win0_4.rect t)).set ↔ _
  rw [View.set_slice_whole, Rect.mem_set_unit]
  exact Iff.rfl

/-- THE FIRST LAUNCH'S OUTPUT ARRAY: the reference's experts' output, when the launch finds the reference's
    gathered tokens and the three weight arrays. -/
theorem ffn_array (c : Dev nD)
    (hx : (V c main_v7 : S160x120x2048.Idx → EReal) = Cert.ReferenceIdeal.Read.val_main_v6 (F := Ideal) x0 x1)
    (h5 : (V c main_arg5 : S160x192x2048.Idx → EReal) = x5) (h6 : (V c main_arg6 : S160x192x2048.Idx → EReal) = x6)
    (h7 : (V c main_arg7 : S160x2048x192.Idx → EReal) = x7) :
    ((dat0 (F := Ideal) V c).arrAt 4 cfg0.N : S160x120x2048.Idx → EReal)
      = Cert.ReferenceIdeal.Read.val_main_v11 (F := Ideal) x0 x1 x5 x6 x7 :=
  (dat0 (F := Ideal) V c).arrAt_eq_of_cover 4 (Cert.ReferenceIdeal.Read.val_main_v11 (F := Ideal) x0 x1 x5 x6 x7)
    (fun t _ => flushed_eq V x0 x1 x5 x6 x7 c t hx h5 h6 h7) fun i => by
      have hN : cfg0.N = 160 := N_0
      have hi0 : (i 0).val < 160 := (i 0).isLt
      have hi1 : (i 1).val < 120 := (i 1).isLt
      have hi2 : (i 2).val < 2048 := (i 2).isLt
      let t : Fin cfg0.N := ⟨(i 0).val, by omega⟩
      have ht : t.val = (i 0).val := rfl
      obtain ⟨-, -, -, -, ⟨i0, i1, i2⟩⟩ := idx_facts t
      refine ⟨t, flush0_4 t, ?_⟩
      rw [mem_blk]
      intro a
      match a with
      | ⟨0, _⟩ => show win0_4.index t (0 : Fin 3) * 1 ≤ (i 0).val ∧ (i 0).val < win0_4.index t (0 : Fin 3) * 1 + 1; omega
      | ⟨1, _⟩ => show win0_4.index t (1 : Fin 3) * 120 ≤ (i 1).val ∧ (i 1).val < win0_4.index t (1 : Fin 3) * 120 + 120; omega
      | ⟨2, _⟩ => show win0_4.index t (2 : Fin 3) * 2048 ≤ (i 2).val ∧ (i 2).val < win0_4.index t (2 : Fin 3) * 2048 + 2048; omega

end Array

end Cert.KernelIdeal.Ffn

end
-- ==== Proof.Combine.lean ====
/-
  The second kernel (the weighted combine) read as a whole array.
-/
import proofs.«117599_j47459388621300_2_alg».proof.Proof.Gen.KernelIdeal.Frame
import proofs.«117599_j47459388621300_2_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Combine

open Cert.KernelIdeal Cert.KernelIdeal.Gen
open Idealize.ShloMosaic Idealize.ShloMosaic.TcCoe Idealize.SL.Sem
open Idealize.ShloMosaic.Pipeline (Dat)
open Idealize.ShloMosaic.ValueIdx

/-- Row `s`, lane `h` of the [3200, 2048] result as an index of the reference's [1, 3200, 2048] result. -/
abbrev outIdx (j : S3200x2048.Idx) : Cert.ReferenceIdeal.S1x3200x2048.Idx := fun a => match a with
  | ⟨0, _⟩ => ⟨0, Nat.one_pos⟩
  | ⟨1, _⟩ => ⟨(j 0).val, (j 0).isLt⟩
  | ⟨2, _⟩ => ⟨(j 1).val, (j 1).isLt⟩

/-- The zero offsets of a rank-2 rectangle, as a constant function. -/
theorem hz : (![0, 0] : Fin 2 → Nat) = fun _ => 0 := funext fun a => by fin_cases a <;> rfl

/-- A column [320, 1] broadcast along the lanes reads, at row `p` and lane `q`, the column's row `p`. -/
theorem bcast_col_apply {α : Type} (v : S320x1.Idx → α) (h : S320x1.Broadcasts S320x2048) (p : Fin 320) (q : Fin 2048) :
    broadcastTo S320x2048 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The slab `k` of a [6, 320, n] buffer, loaded as a [1, 320, n] vector, reads at (0, p, q) the buffer at (k, p, q). -/
theorem ld_slab_apply {Val : EltTy → Type} {e : EltTy} {n : Nat} (X : (⟨3, ![6, 320, n]⟩ : Shape).Idx → Val e)
    (k : Nat) (kk : Fin 6) (hkk : kk.val = k)
    (inb : ∀ a, (![k, 0, 0] : Fin 3 → Nat) a + (![1, 320, n] : Fin 3 → Nat) a ≤ (⟨3, ![6, 320, n]⟩ : Shape).size a)
    (p : Fin 320) (q : Fin n) :
    View.ld X (Rect.unit (s := ⟨3, ![6, 320, n]⟩) ![k, 0, 0] ![1, 320, n] inb) (ix3 (0 : Fin 1) p q) = X (ix3 kk p q) := by
  subst hkk
  show X _ = X _
  congr 1
  funext a
  apply Fin.ext
  match a with
  | ⟨0, _⟩ => show kk.val + 1 * 0 = kk.val; omega
  | ⟨1, _⟩ => show 0 + 1 * p.val = p.val; omega
  | ⟨2, _⟩ => show 0 + 1 * q.val = q.val; omega

/-- THE BODY AT ROW `p`, LANE `q` of a block: the six experts' rows weighted and added in order, then the shared row. -/
theorem out_apply (X0 : Vec Ideal S6x320x2048 .bf16) (X1 : Vec Ideal S6x320x1 .f32) (X2 : Vec Ideal S320x2048 .f32)
    (p : Fin 320) (q : Fin 2048) :
    (out1_3 X0 X1 X2 (ix2 p q) : EReal)
      = (((((X1 (ix3 (0 : Fin 6) p (0 : Fin 1)) * X0 (ix3 (0 : Fin 6) p q) + X1 (ix3 (1 : Fin 6) p (0 : Fin 1)) * X0 (ix3 (1 : Fin 6) p q))
          + X1 (ix3 (2 : Fin 6) p (0 : Fin 1)) * X0 (ix3 (2 : Fin 6) p q))
          + X1 (ix3 (3 : Fin 6) p (0 : Fin 1)) * X0 (ix3 (3 : Fin 6) p q))
          + X1 (ix3 (4 : Fin 6) p (0 : Fin 1)) * X0 (ix3 (4 : Fin 6) p q))
          + X1 (ix3 (5 : Fin 6) p (0 : Fin 1)) * X0 (ix3 (5 : Fin 6) p q))
        + X2 (ix2 p q) := by
  unfold out1_3
  rw [View.canon_unit_zero hz]
  unfold k1_pay1 k1_pay2
  simp only [addf_apply, mulf_apply, extf_apply, bcast_col_apply, shapeCast_1ab_ab_apply, shapeCast_self,
    View.ld_unit_zero (S := S320x2048) hz]
  rw [ld_slab_apply (Val := Elt Ideal) (e := .f32) X1 0 (0 : Fin 6) rfl, ld_slab_apply (Val := Elt Ideal) (e := .bf16) X0 0 (0 : Fin 6) rfl,
    ld_slab_apply (Val := Elt Ideal) (e := .f32) X1 1 (1 : Fin 6) rfl, ld_slab_apply (Val := Elt Ideal) (e := .bf16) X0 1 (1 : Fin 6) rfl,
    ld_slab_apply (Val := Elt Ideal) (e := .f32) X1 2 (2 : Fin 6) rfl, ld_slab_apply (Val := Elt Ideal) (e := .bf16) X0 2 (2 : Fin 6) rfl,
    ld_slab_apply (Val := Elt Ideal) (e := .f32) X1 3 (3 : Fin 6) rfl, ld_slab_apply (Val := Elt Ideal) (e := .bf16) X0 3 (3 : Fin 6) rfl,
    ld_slab_apply (Val := Elt Ideal) (e := .f32) X1 4 (4 : Fin 6) rfl, ld_slab_apply (Val := Elt Ideal) (e := .bf16) X0 4 (4 : Fin 6) rfl,
    ld_slab_apply (Val := Elt Ideal) (e := .f32) X1 5 (5 : Fin 6) rfl, ld_slab_apply (Val := Elt Ideal) (e := .bf16) X0 5 (5 : Fin 6) rfl]

/-- The combine as ONE function of the three whole arrays: at row `s`, lane `h`, the six experts' rows weighted and added
    in order, then the shared row. -/
def G (A0 : S6x3200x2048.Idx → EReal) (A1 : S6x3200x1.Idx → EReal) (A2 : S3200x2048.Idx → EReal) : S3200x2048.Idx → EReal :=
  fun i =>
    (((((A1 (ix3 (0 : Fin 6) (⟨(i 0).val, idx2_lt0 i⟩ : Fin 3200) (0 : Fin 1)) * A0 (ix3 (0 : Fin 6) (⟨(i 0).val, idx2_lt0 i⟩ : Fin 3200) (⟨(i 1).val, idx2_lt1 i⟩ : Fin 2048))
      + A1 (ix3 (1 : Fin 6) (⟨(i 0).val, idx2_lt0 i⟩ : Fin 3200) (0 : Fin 1)) * A0 (ix3 (1 : Fin 6) (⟨(i 0).val, idx2_lt0 i⟩ : Fin 3200) (⟨(i 1).val, idx2_lt1 i⟩ : Fin 2048)))
      + A1 (ix3 (2 : Fin 6) (⟨(i 0).val, idx2_lt0 i⟩ : Fin 3200) (0 : Fin 1)) * A0 (ix3 (2 : Fin 6) (⟨(i 0).val, idx2_lt0 i⟩ : Fin 3200) (⟨(i 1).val, idx2_lt1 i⟩ : Fin 2048)))
      + A1 (ix3 (3 : Fin 6) (⟨(i 0).val, idx2_lt0 i⟩ : Fin 3200) (0 : Fin 1)) * A0 (ix3 (3 : Fin 6) (⟨(i 0).val, idx2_lt0 i⟩ : Fin 3200) (⟨(i 1).val, idx2_lt1 i⟩ : Fin 2048)))
      + A1 (ix3 (4 : Fin 6) (⟨(i 0).val, idx2_lt0 i⟩ : Fin 3200) (0 : Fin 1)) * A0 (ix3 (4 : Fin 6) (⟨(i 0).val, idx2_lt0 i⟩ : Fin 3200) (⟨(i 1).val, idx2_lt1 i⟩ : Fin 2048)))
      + A1 (ix3 (5 : Fin 6) (⟨(i 0).val, idx2_lt0 i⟩ : Fin 3200) (0 : Fin 1)) * A0 (ix3 (5 : Fin 6) (⟨(i 0).val, idx2_lt0 i⟩ : Fin 3200) (⟨(i 1).val, idx2_lt1 i⟩ : Fin 2048)))
    + A2 i

/-- The printed index maps, decided once over the grid: at point `t` every window sits at block `t` of the row axis and
    block 0 of the others. -/
theorem idx_facts : ∀ t : Fin cfg1.N,
    win1_0.index t (0 : Fin 3) = 0 ∧ win1_0.index t (1 : Fin 3) = t.val ∧ win1_0.index t (2 : Fin 3) = 0
    ∧ win1_1.index t (0 : Fin 3) = 0 ∧ win1_1.index t (1 : Fin 3) = t.val ∧ win1_1.index t (2 : Fin 3) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The combine read at an index given by its coordinates. -/
theorem G_ix2 (A0 : S6x3200x2048.Idx → EReal) (A1 : S6x3200x1.Idx → EReal) (A2 : S3200x2048.Idx → EReal) (r : Fin 3200) (q : Fin 2048) :
    G A0 A1 A2 (ix2 r q) =
    (((((A1 (ix3 (0 : Fin 6) r (0 : Fin 1)) * A0 (ix3 (0 : Fin 6) r q)
      + A1 (ix3 (1 : Fin 6) r (0 : Fin 1)) * A0 (ix3 (1 : Fin 6) r q))
      + A1 (ix3 (2 : Fin 6) r (0 : Fin 1)) * A0 (ix3 (2 : Fin 6) r q))
      + A1 (ix3 (3 : Fin 6) r (0 : Fin 1)) * A0 (ix3 (3 : Fin 6) r q))
      + A1 (ix3 (4 : Fin 6) r (0 : Fin 1)) * A0 (ix3 (4 : Fin 6) r q))
      + A1 (ix3 (5 : Fin 6) r (0 : Fin 1)) * A0 (ix3 (5 : Fin 6) r q))
    + A2 (ix2 r q) := rfl

open Cert.ReferenceIdeal.Read in
/-- The reference's index maps composed, at row `s`, lane `h`: expert `k`'s element. -/
theorem idx23_eq (s : Fin 3200) (h : Fin 2048) (k : Fin 6) :
    idx_main_v23 (idx_main_v24 (outIdx (ix2 s h))) k = (ix3 k s h : S6x3200x2048.Idx) := by
  funext a
  match a with
  | ⟨0, _⟩ => rfl
  | ⟨1, _⟩ => rfl
  | ⟨2, _⟩ => rfl

open Cert.ReferenceIdeal.Read in
/-- The weights' broadcast reads lane 0. -/
theorem idx21_eq (s : Fin 3200) (h : Fin 2048) (k : Fin 6) :
    idx_main_v21 (ix3 k s h : S6x3200x2048.Idx) = (ix3 k s (0 : Fin 1) : S6x3200x1.Idx) := by
  funext a
  match a with
  | ⟨0, _⟩ => rfl
  | ⟨1, _⟩ => rfl
  | ⟨2, _⟩ => rfl

open Cert.ReferenceIdeal.Read in
/-- The combine of the reference's three arrays is the reference's result: the same six products, each with its factors
    in the other order, added in the same order onto the zero the sum starts from, then the shared row. -/
theorem G_eq_ref (x0 : Cert.ReferenceIdeal.S3200x2048.Idx → EReal) (x1 : Cert.ReferenceIdeal.S160x120.Idx → BitVec 32)
    (x2 : Cert.ReferenceIdeal.S19200.Idx → BitVec 32) (x3 : Cert.ReferenceIdeal.S6x3200x1.Idx → EReal)
    (x4 : Cert.ReferenceIdeal.S1x3200x2048.Idx → EReal)
    (x5 x6 : Cert.ReferenceIdeal.S160x192x2048.Idx → EReal) (x7 : Cert.ReferenceIdeal.S160x2048x192.Idx → EReal) :
    G (val_main_v20 (F := Ideal) x0 x1 x2 x5 x6 x7) x3 (fun j => x4 (outIdx j))
      = fun j => val_main_v25 (F := Ideal) x0 x1 x2 x3 x4 x5 x6 x7 (outIdx j) := by
  funext j
  obtain ⟨s, h, rfl⟩ : ∃ (s : Fin 3200) (h : Fin 2048), j = ix2 s h := ⟨j 0, j 1, eq_ix2 j⟩
  rw [G_ix2, val_main_v25_apply, val_main_v24_apply, val_main_v23_apply, Fin.sum_univ_six]
  simp only [val_main_v22_apply, val_main_cst_apply, idx23_eq, val_main_v21_apply, idx21_eq]
  generalize val_main_v20 (F := Ideal) x0 x1 x2 x5 x6 x7 = Y
  show _ = (Ideal.ofBits .f32 0x00000000#32
      + (((((Y (ix3 (0 : Fin 6) s h) * x3 (ix3 (0 : Fin 6) s (0 : Fin 1)) + Y (ix3 (1 : Fin 6) s h) * x3 (ix3 (1 : Fin 6) s (0 : Fin 1)))
        + Y (ix3 (2 : Fin 6) s h) * x3 (ix3 (2 : Fin 6) s (0 : Fin 1)))
        + Y (ix3 (3 : Fin 6) s h) * x3 (ix3 (3 : Fin 6) s (0 : Fin 1)))
        + Y (ix3 (4 : Fin 6) s h) * x3 (ix3 (4 : Fin 6) s (0 : Fin 1)))
        + Y (ix3 (5 : Fin 6) s h) * x3 (ix3 (5 : Fin 6) s (0 : Fin 1))))
      + x4 (outIdx (ix2 s h))
  rw [Ideal.ofBits_zero_f32, zero_add,
    mul_comm (Y (ix3 (0 : Fin 6) s h)), mul_comm (Y (ix3 (1 : Fin 6) s h)), mul_comm (Y (ix3 (2 : Fin 6) s h)),
    mul_comm (Y (ix3 (3 : Fin 6) s h)), mul_comm (Y (ix3 (4 : Fin 6) s h)), mul_comm (Y (ix3 (5 : Fin 6) s h))]

variable (V : (c : Dev nD) → (b : Ref sig .tc) → Buf (Elt Ideal) ((c : Thread nD τ).loc b))

/-- Block `t` of the expert outputs: slab `k`, row `p`, lane `q` of the block is row `320 t + p` of the array. -/
theorem iblk0_apply (c : Dev nD) (t : Fin cfg1.N) (k : Fin 6) (p : Fin 320) (q : Fin 2048) (r : Fin 3200)
    (hr : r.val = t.val * 320 + p.val) :
    (iblk1 (F := Ideal) V c 0 t : Vec Ideal S6x320x2048 .bf16) (ix3 k p q) = (V c main_v17 : S6x3200x2048.Idx → EReal) (ix3 k r q) := by
  obtain ⟨e0, e1, e2, -⟩ := idx_facts t
  show (V c main_v17 : S6x3200x2048.Idx → EReal) (((cfg1.win 0).blk t).view.emb (ix3 k p q)) = _
  congr 1
  funext a
  apply Fin.ext
  match a with
  | ⟨0, _⟩ => show win1_0.index t (0 : Fin 3) * 6 + 1 * k.val = k.val; rw [e0]; omega
  | ⟨1, _⟩ => show win1_0.index t (1 : Fin 3) * 320 + 1 * p.val = r.val; rw [e1, hr]; omega
  | ⟨2, _⟩ => show win1_0.index t (2 : Fin 3) * 2048 + 1 * q.val = q.val; rw [e2]; omega

/-- Block `t` of the routing weights: slab `k`, row `p` of the block is row `320 t + p` of the array. -/
theorem iblk1_apply (c : Dev nD) (t : Fin cfg1.N) (k : Fin 6) (p : Fin 320) (r : Fin 3200)
    (hr : r.val = t.val * 320 + p.val) :
    (iblk1 (F := Ideal) V c 1 t : Vec Ideal S6x320x1 .f32) (ix3 k p (0 : Fin 1)) = (V c main_arg3 : S6x3200x1.Idx → EReal) (ix3 k r (0 : Fin 1)) := by
  obtain ⟨-, -, -, e0, e1, e2, -⟩ := idx_facts t
  show (V c main_arg3 : S6x3200x1.Idx → EReal) (((cfg1.win 1).blk t).view.emb (ix3 k p (0 : Fin 1))) = _
  congr 1
  funext a
  apply Fin.ext
  match a with
  | ⟨0, _⟩ => show win1_1.index t (0 : Fin 3) * 6 + 1 * k.val = k.val; rw [e0]; omega
  | ⟨1, _⟩ => show win1_1.index t (1 : Fin 3) * 320 + 1 * p.val = r.val; rw [e1, hr]; omega
  | ⟨2, _⟩ => show win1_1.index t (2 : Fin 3) * 1 + 1 * 0 = 0; rw [e2]

/-- Block `t` of the shared output: row `p`, lane `q` of the block is row `320 t + p` of the array. -/
theorem iblk2_apply (c : Dev nD) (t : Fin cfg1.N) (p : Fin 320) (q : Fin 2048) (r : Fin 3200)
    (hr : r.val = t.val * 320 + p.val) :
    (iblk1 (F := Ideal) V c 2 t : Vec Ideal S320x2048 .f32) (ix2 p q) = (V c main_v18 : S3200x2048.Idx → EReal) (ix2 r q) := by
  obtain ⟨-, -, -, -, -, -, e0, e1, -⟩ := idx_facts t
  show (V c main_v18 : S3200x2048.Idx → EReal) (((cfg1.win 2).blk t).view.emb (ix2 p q)) = _
  congr 1
  funext a
  apply Fin.ext
  match a with
  | ⟨0, _⟩ => show win1_2.index t (0 : Fin 2) * 320 + 1 * p.val = r.val; rw [e0, hr]; omega
  | ⟨1, _⟩ => show win1_2.index t (1 : Fin 2) * 2048 + 1 * q.val = q.val; rw [e1]; omega

/-- Where row `p`, lane `q` of the output block at point `t` sits in the array: row `320 t + p`, lane `q`. -/
theorem oblk_emb (t : Fin cfg1.N) (p : Fin 320) (q : Fin 2048) (r : Fin 3200) (hr : r.val = t.val * 320 + p.val) :
    ((cfg1.win 3).blk t).view.emb (ix2 p q) = (ix2 r q : S3200x2048.Idx) := by
  obtain ⟨-, -, -, -, -, -, -, -, e0, e1⟩ := idx_facts t
  funext a
  apply Fin.ext
  match a with
  | ⟨0, _⟩ => show win1_3.index t (0 : Fin 2) * 320 + 1 * p.val = r.val; rw [e0, hr]; omega
  | ⟨1, _⟩ => show win1_3.index t (1 : Fin 2) * 2048 + 1 * q.val = q.val; rw [e1]; omega

/-- WHAT POINT `t` WRITES BACK is block `t` of the combine of the three arrays as the region finds them. -/
theorem flushed_eq (c : Dev nD) (t : Fin cfg1.N) :
    (dat1 (F := Ideal) V c).flushed 3 t
      = ((cfg1.win 3).blk t).view.read (Elt Ideal) (G (V c main_v17) (V c main_arg3) (V c main_v18)) := by
  show (cfg1.win 3).cut (grid1.coords t) ((dat1 (F := Ideal) V c).after 3 t) = _
  rw [after1_3]
  funext y
  obtain ⟨p, q, rfl⟩ : ∃ (p : Fin 320) (q : Fin 2048), y = ix2 p q := ⟨y 0, y 1, eq_ix2 y⟩
  have hlt : t.val * 320 + p.val < 3200 := by
    have h1 : t.val < 10 := Nat.lt_of_lt_of_eq t.isLt (show cfg1.N = 10 from N_1)
    have h2 := p.isLt
    omega
  show out1_3 (iblk1 (F := Ideal) V c 0 t) (iblk1 (F := Ideal) V c 1 t) (iblk1 (F := Ideal) V c 2 t) (ix2 p q)
    = G (V c main_v17) (V c main_arg3) (V c main_v18) (((cfg1.win 3).blk t).view.emb (ix2 p q))
  rw [oblk_emb t p q ⟨t.val * 320 + p.val, hlt⟩ rfl, G_ix2, out_apply]
  rw [iblk0_apply V c t 0 p q ⟨t.val * 320 + p.val, hlt⟩ rfl, iblk0_apply V c t 1 p q ⟨t.val * 320 + p.val, hlt⟩ rfl,
    iblk0_apply V c t 2 p q ⟨t.val * 320 + p.val, hlt⟩ rfl, iblk0_apply V c t 3 p q ⟨t.val * 320 + p.val, hlt⟩ rfl,
    iblk0_apply V c t 4 p q ⟨t.val * 320 + p.val, hlt⟩ rfl, iblk0_apply V c t 5 p q ⟨t.val * 320 + p.val, hlt⟩ rfl,
    iblk1_apply V c t 0 p ⟨t.val * 320 + p.val, hlt⟩ rfl, iblk1_apply V c t 1 p ⟨t.val * 320 + p.val, hlt⟩ rfl,
    iblk1_apply V c t 2 p ⟨t.val * 320 + p.val, hlt⟩ rfl, iblk1_apply V c t 3 p ⟨t.val * 320 + p.val, hlt⟩ rfl,
    iblk1_apply V c t 4 p ⟨t.val * 320 + p.val, hlt⟩ rfl, iblk1_apply V c t 5 p ⟨t.val * 320 + p.val, hlt⟩ rfl,
    iblk2_apply V c t p q ⟨t.val * 320 + p.val, hlt⟩ rfl]

/-- An index of the array is in point `t`'s block iff each coordinate is in the block's range on its axis. -/
theorem mem_blk (t : Fin cfg1.N) (i : S3200x2048.Idx) :
    i ∈ ((cfg1.win 3).blk t).view.set ↔ ∀ a : Fin 2, win1_3.index t a * S320x2048.size a ≤ (i a).val ∧ (i a).val < win1_3.index t a * S320x2048.size a + S320x2048.size a := by
  show i ∈ ((View.whole main_v19).slice (win1_3.rect t)).set ↔ _
  rw [View.set_slice_whole, Rect.mem_set_unit]
  exact Iff.rfl

/-- Every row of the array is in the block of the point its number over 320 names, and every point writes back. -/
theorem cover (i : S3200x2048.Idx) :
    ∃ t : Fin cfg1.N, (cfg1.win 3).flush t = true ∧ i ∈ ((cfg1.win 3).blk t).view.set := by
  have h0 : (i 0).val < 3200 := idx2_lt0 i
  have h1 : (i 1).val < 2048 := idx2_lt1 i
  have ht : (i 0).val / 320 < cfg1.N := by rw [show cfg1.N = 10 from N_1]; omega
  obtain ⟨-, -, -, -, -, -, -, -, e0, e1⟩ := idx_facts ⟨(i 0).val / 320, ht⟩
  have e0' : win1_3.index ⟨(i 0).val / 320, ht⟩ (0 : Fin 2) = (i 0).val / 320 := e0
  refine ⟨⟨(i 0).val / 320, ht⟩, flush1_3 _, ?_⟩
  rw [mem_blk]
  intro a
  match a with
  | ⟨0, _⟩ =>
    show win1_3.index ⟨(i 0).val / 320, ht⟩ (0 : Fin 2) * 320 ≤ (i 0).val ∧ (i 0).val < win1_3.index ⟨(i 0).val / 320, ht⟩ (0 : Fin 2) * 320 + 320
    rw [e0']; omega
  | ⟨1, _⟩ =>
    show win1_3.index ⟨(i 0).val / 320, ht⟩ (1 : Fin 2) * 2048 ≤ (i 1).val ∧ (i 1).val < win1_3.index ⟨(i 0).val / 320, ht⟩ (1 : Fin 2) * 2048 + 2048
    rw [e1]; omega

/-- THE ARRAY after the launch is the combine of the three arrays as the region finds them. -/
theorem array_eq (c : Dev nD) :
    (dat1 (F := Ideal) V c).arrAt 3 cfg1.N = G (V c main_v17) (V c main_arg3) (V c main_v18) :=
  (dat1 (F := Ideal) V c).arrAt_eq_of_cover 3 (G (V c main_v17) (V c main_arg3) (V c main_v18)) (fun t _ => flushed_eq V c t) cover

theorem combine_array (c : Dev nD)
    (x0 : Cert.ReferenceIdeal.S3200x2048.Idx → EReal) (x1 : Cert.ReferenceIdeal.S160x120.Idx → BitVec 32)
    (x2 : Cert.ReferenceIdeal.S19200.Idx → BitVec 32) (x3 : Cert.ReferenceIdeal.S6x3200x1.Idx → EReal)
    (x4 : Cert.ReferenceIdeal.S1x3200x2048.Idx → EReal)
    (x5 x6 : Cert.ReferenceIdeal.S160x192x2048.Idx → EReal) (x7 : Cert.ReferenceIdeal.S160x2048x192.Idx → EReal)
    (hflat : (V c main_v17 : S6x3200x2048.Idx → EReal) = Cert.ReferenceIdeal.Read.val_main_v20 (F := Ideal) x0 x1 x2 x5 x6 x7)
    (hw : (V c main_arg3 : S6x3200x1.Idx → EReal) = x3)
    (hsh : (V c main_v18 : S3200x2048.Idx → EReal) = fun j => x4 (outIdx j)) :
    ((dat1 (F := Ideal) V c).arrAt 3 cfg1.N : S3200x2048.Idx → EReal)
      = fun j => Cert.ReferenceIdeal.Read.val_main_v25 (F := Ideal) x0 x1 x2 x3 x4 x5 x6 x7 (outIdx j) := by
  exact (array_eq V c).trans
    ((congr (congr (congrArg G hflat) hw) hsh).trans (G_eq_ref x0 x1 x2 x3 x4 x5 x6 x7))

end Cert.KernelIdeal.Combine

end
-- ==== Proof.Bridge.lean ====
/-
  The idealized kernel program's result is the reference's result, as functions of the argument arrays: the
  buffers at each boundary of the program's run (host stretch, first launch, host stretch, second launch, host
  stretch) read back to the reference's stages one after the other — the gathered tokens, the experts' outputs,
  their regrouping, the weighted combination with the shared term.
-/
import proofs.«117599_j47459388621300_2_alg».proof.Proof.KernelRun
import proofs.«117599_j47459388621300_2_alg».proof.Proof.HostChain
import proofs.«117599_j47459388621300_2_alg».proof.Proof.Ffn
import proofs.«117599_j47459388621300_2_alg».proof.Proof.Combine
import proofs.«117599_j47459388621300_2_alg».proof.Proof.Gen.ReferenceIdeal.Read

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-- The argument arrays at launch, as plain functions. -/
abbrev a0 (c : Dev nD) : Cert.ReferenceIdeal.S3200x2048.Idx → EReal := m ((c : Thread nD τ).loc main_arg0)
abbrev a1 (c : Dev nD) : Cert.ReferenceIdeal.S160x120.Idx → BitVec 32 := m ((c : Thread nD τ).loc main_arg1)
abbrev a2 (c : Dev nD) : Cert.ReferenceIdeal.S19200.Idx → BitVec 32 := m ((c : Thread nD τ).loc main_arg2)
abbrev a3 (c : Dev nD) : Cert.ReferenceIdeal.S6x3200x1.Idx → EReal := m ((c : Thread nD τ).loc main_arg3)
abbrev a4 (c : Dev nD) : Cert.ReferenceIdeal.S1x3200x2048.Idx → EReal := m ((c : Thread nD τ).loc main_arg4)
abbrev a5 (c : Dev nD) : Cert.ReferenceIdeal.S160x192x2048.Idx → EReal := m ((c : Thread nD τ).loc main_arg5)
abbrev a6 (c : Dev nD) : Cert.ReferenceIdeal.S160x192x2048.Idx → EReal := m ((c : Thread nD τ).loc main_arg6)
abbrev a7 (c : Dev nD) : Cert.ReferenceIdeal.S160x2048x192.Idx → EReal := m ((c : Thread nD τ).loc main_arg7)

/-- The first launch finds the reference's gathered tokens. -/
theorem tokens (c : Dev nD) :
    (V1 m ρ c main_v7 : S160x120x2048.Idx → EReal) = Cert.ReferenceIdeal.Read.val_main_v6 (F := Ideal) (a0 m c) (a1 m c) :=
  HostChain.tokens_entry (W0 m ρ c)

/-- The first launch leaves the reference's experts' outputs. -/
theorem experts_out (c : Dev nD) :
    (W2 m ρ c (Proc.devRef .tc main_v8) : S160x120x2048.Idx → EReal)
      = Cert.ReferenceIdeal.Read.val_main_v11 (F := Ideal) (a0 m c) (a1 m c) (a5 m c) (a6 m c) (a7 m c) :=
  (W2_arr m ρ c 4).trans (Ffn.ffn_array (V1 m ρ) (a0 m c) (a1 m c) (a5 m c) (a6 m c) (a7 m c) c (tokens m ρ c)
    (HostChain.gate_entry (W0 m ρ c)) (HostChain.up_entry (W0 m ρ c)) (HostChain.down_entry (W0 m ρ c)))

/-- The permutation words pass the first launch unchanged. -/
theorem words (c : Dev nD) : (W2 m ρ c (Proc.devRef .tc main_arg2) : S19200.Idx → BitVec 32) = a2 m c :=
  (W2_of_ne m ρ c main_arg2 (by decide)).trans (HostChain.words_entry (W0 m ρ c))

/-- The second launch finds the reference's regrouped experts' outputs, -/
theorem flat (c : Dev nD) :
    (V3 m ρ c main_v17 : S6x3200x2048.Idx → EReal)
      = Cert.ReferenceIdeal.Read.val_main_v20 (F := Ideal) (a0 m c) (a1 m c) (a2 m c) (a5 m c) (a6 m c) (a7 m c) := by
  have h := HostChain.flat_entry (W2 m ρ c)
  rw [experts_out m ρ c, words m ρ c] at h
  exact h.trans (HostChain.ref_regroup _ _ _ _ _ _).symm

/-- the routing weights as launched, -/
theorem weights (c : Dev nD) : (V3 m ρ c main_arg3 : S6x3200x1.Idx → EReal) = a3 m c :=
  (HostChain.weights_mid (W2 m ρ c)).trans ((W2_of_ne m ρ c main_arg3 (by decide)).trans (HostChain.weights_entry (W0 m ρ c)))

/-- and the shared term read at (0, s, h). -/
theorem shared (c : Dev nD) : (V3 m ρ c main_v18 : S3200x2048.Idx → EReal) = fun j => a4 m c (Combine.outIdx j) := by
  have h4 : (W2 m ρ c (Proc.devRef .tc main_arg4) : S1x3200x2048.Idx → EReal) = a4 m c :=
    (W2_of_ne m ρ c main_arg4 (by decide)).trans (HostChain.shared_entry (W0 m ρ c))
  have h := HostChain.shared_mid (W2 m ρ c)
  rw [h4] at h
  refine h.trans (funext fun j => ?_)
  obtain ⟨s, l, rfl⟩ : ∃ (s : Fin 3200) (l : Fin 2048), j = ix2 s l := ⟨j 0, j 1, eq_ix2 j⟩
  rw [shapeCast_1ab_ab_apply]
  exact congrArg (a4 m c) (funext fun a => Fin.ext (by match a with | ⟨0, _⟩ => rfl | ⟨1, _⟩ => rfl | ⟨2, _⟩ => rfl))

/-- The second launch leaves the reference's result read at (0, s, h). -/
theorem combined (c : Dev nD) :
    (W4 m ρ c (Proc.devRef .tc main_v19) : S3200x2048.Idx → EReal)
      = fun j => Cert.ReferenceIdeal.Read.val_main_v25 (F := Ideal) (a0 m c) (a1 m c) (a2 m c) (a3 m c) (a4 m c) (a5 m c) (a6 m c) (a7 m c) (Combine.outIdx j) :=
  (W4_arr m ρ c 3).trans (Combine.combine_array (V3 m ρ) c (a0 m c) (a1 m c) (a2 m c) (a3 m c) (a4 m c) (a5 m c) (a6 m c) (a7 m c)
    (flat m ρ c) (weights m ρ c) (shared m ρ c))

/-- THE RESULT BUFFER at the end of the run is the reference's result of the argument arrays. -/
theorem result (c : Dev nD) :
    (W5 m ρ c (Proc.devRef .tc main_v20) : S1x3200x2048.Idx → EReal)
      = Cert.ReferenceIdeal.Read.val_main_v25 (F := Ideal) (a0 m c) (a1 m c) (a2 m c) (a3 m c) (a4 m c) (a5 m c) (a6 m c) (a7 m c) := by
  have h := HostChain.result_exit (W4 m ρ c)
  rw [combined m ρ c] at h
  refine h.trans (funext fun i => ?_)
  obtain ⟨u, s, l, rfl⟩ : ∃ (u : Fin 1) (s : Fin 3200) (l : Fin 2048), i = ix3 u s l := ⟨i 0, i 1, i 2, eq_ix3 i⟩
  rw [shapeCast_ab_1ab_apply]
  exact congrArg _ (funext fun a => Fin.ext (by
    match a with
    | ⟨0, _⟩ => show (0 : ℕ) = u.val; omega
    | ⟨1, _⟩ => rfl
    | ⟨2, _⟩ => rfl))

end Cert.KernelIdeal.Bridge

end
-- ==== Proof.lean ====
/-
  A mixture-of-experts layer: tokens are gathered by expert, each expert applies a gated feed-forward block
  (gate and up projections, the gate through x · logistic(x), their product through the down projection), the
  experts' outputs are permuted back to (routing slot, token) order and combined with the routing weights and a
  shared term. The kernel program does the two gathers on the host and the feed-forward blocks and the weighted
  combination in two kernels; the reference is the same computation in plain array operations.

  Over the extended reals, with every change of float format the identity, the two programs are the same function
  of the argument arrays, index by index: a matrix product is the same finite sum in either spelling, the
  logistic function is 1 / (1 + exp (-x)) by definition, and the weighted combination differs only by the order
  of each product's factors, the grouping of the six-term sum and a leading zero — laws of + and · that hold at
  the infinities too, so the finiteness of the inputs is never used.

  The three frames: the two kernel programs' are the generated frame theorems; the reference's is its generated
  run with the result forgotten. The idealization rewrote nothing, so `preserves` is trivial.
-/
import proofs.«117599_j47459388621300_2_alg».proof.Defs
import proofs.«117599_j47459388621300_2_alg».proof.Proof.Gen.Kernel
import proofs.«117599_j47459388621300_2_alg».proof.Proof.Gen.Kernel.Skeleton
import proofs.«117599_j47459388621300_2_alg».proof.Proof.Gen.Kernel.Launch
import proofs.«117599_j47459388621300_2_alg».proof.Proof.Gen.Kernel.Points
import proofs.«117599_j47459388621300_2_alg».proof.Proof.Gen.Kernel.Frame
import proofs.«117599_j47459388621300_2_alg».proof.Proof.Gen.KernelIdeal
import proofs.«117599_j47459388621300_2_alg».proof.Proof.Gen.KernelIdeal.Skeleton
import proofs.«117599_j47459388621300_2_alg».proof.Proof.Gen.KernelIdeal.Launch
import proofs.«117599_j47459388621300_2_alg».proof.Proof.Gen.KernelIdeal.Points
import proofs.«117599_j47459388621300_2_alg».proof.Proof.Gen.KernelIdeal.Frame
import proofs.«117599_j47459388621300_2_alg».proof.Proof.Gen.ReferenceIdeal
import proofs.«117599_j47459388621300_2_alg».proof.Proof.Gen.Pre_finite_inputs
import proofs.«117599_j47459388621300_2_alg».proof.Proof.Gen.ReferenceIdeal.Read
import proofs.«117599_j47459388621300_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the reference's final stage of the (agreeing) argument arrays. -/
theorem algebraic : Cert.algebraic_KernelIdeal_ReferenceIdeal := by
  intro m ρ m' ρ' _ hagree
  refine ⟨fun c => Cert.ReferenceIdeal.Read.val_main_v25 (F := Ideal) (Cert.KernelIdeal.Bridge.a0 m c) (Cert.KernelIdeal.Bridge.a1 m c)
    (Cert.KernelIdeal.Bridge.a2 m c) (Cert.KernelIdeal.Bridge.a3 m c) (Cert.KernelIdeal.Bridge.a4 m c) (Cert.KernelIdeal.Bridge.a5 m c)
    (Cert.KernelIdeal.Bridge.a6 m c) (Cert.KernelIdeal.Bridge.a7 m c), ?_, ?_⟩
  · exact (θ_run Cert.KernelIdeal.defs _ _).mono
      (fun r h c => ⟨(h c).1.trans (Cert.KernelIdeal.Bridge.result m ρ c), (h c).2⟩) (Cert.KernelIdeal.RunValue.run_result m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [e0, e1, e2, e3, e4, e5, e6, e7]
    exact Cert.ReferenceIdeal.Read.val_main_v25_eq _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
